-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S100000x3 : Shape := ⟨2, ![100000, 3]⟩
abbrev S5x64 : Shape := ⟨2, ![5, 64]⟩
abbrev S64 : Shape := ⟨1, ![64]⟩
abbrev S64x64 : Shape := ⟨2, ![64, 64]⟩
abbrev S67x64 : Shape := ⟨2, ![67, 64]⟩
abbrev S64x30 : Shape := ⟨2, ![64, 30]⟩
abbrev S30 : Shape := ⟨1, ![30]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S67x64 : S_.BroadcastsInDim S67x64 (![] : Fin 0 → Fin S67x64.rank)
  reducesTo_S67x64_S_d0_1 : S67x64.ReducesTo [0, 1] S_
  bcast_S_S64x30 : S_.BroadcastsInDim S64x30 (![] : Fin 0 → Fin S64x30.rank)
  reducesTo_S64x30_S_d0_1 : S64x30.ReducesTo [0, 1] S_
  bcast_S_S30 : S_.BroadcastsInDim S30 (![] : Fin 0 → Fin S30.rank)
  reducesTo_S30_S_d0 : S30.ReducesTo [0] S_

variable [Facts]

def fn_part3 {F : FTy → Type} [FloatOps F] (main_arg12 : FVec F S30 .f32) (main_v48 : IVec S_ 1) (main_v49 : FVec F S64x30 .f32) (main_v50 : FVec F S64x30 .f32) : IVec S_ 1 :=
  let main_v51 : IVec S64x30 1 := cmpf .olt main_v49 main_v50
  let main_c_19 : IVec S_ 1 := constantI S_ 1 1#1
  let main_v52 : IVec S_ 1 := (fun x v => Host.reduce IntOp.andi x v reducesTo_S64x30_S_d0_1 h_S_) main_v51 main_c_19
  let main_v53 : IVec S_ 1 := andi main_v48 main_v52
  let main_v54 : FVec F S30 .f32 := Host.absf main_arg12
  let main_cst_20 : FVec F S_ .f32 := constant S_ .f32 0x7F800000#32
  let main_v55 : FVec F S30 .f32 := broadcastInDim S30 ![] bcast_S_S30 main_cst_20
  let main_v56 : IVec S30 1 := cmpf .olt main_v54 main_v55
  let main_c_21 : IVec S_ 1 := constantI S_ 1 1#1
  let main_v57 : IVec S_ 1 := (fun x v => Host.reduce IntOp.andi x v reducesTo_S30_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64x30 .f32) (main_arg12 : FVec F S30 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x30 .f32 := Host.absf main_arg11
  let main_cst_18 : FVec F S_ .f32 := constant S_ .f32 0x7F800000#32
  let main_v50 : FVec F S64x30 .f32 := broadcastInDim S64x30 ![] bcast_S_S64x30 main_cst_18
  fn_part3 (F := F) main_arg12 main_v48 main_v49 main_v50

def fn_part1 {F : FTy → Type} [FloatOps F] (main_arg5 : FVec F S64x64 .f32) (main_arg6 : FVec F S64 .f32) (main_arg7 : FVec F S67x64 .f32) (main_arg8 : FVec F S64 .f32) (main_arg9 : FVec F S64x64 .f32) (main_arg10 : FVec F S64 .f32) (main_arg11 : FVec F S64x30 .f32) (main_arg12 : FVec F S30 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S67x64 .f32 := Host.absf main_arg7
  let main_cst_10 : FVec F S_ .f32 := constant S_ .f32 0x7F800000#32
  let main_v30 : FVec F S67x64 .f32 := broadcastInDim S67x64 ![] bcast_S_S67x64 main_cst_10
  let main_v31 : IVec S67x64 1 := cmpf .olt main_v29 main_v30
  let main_c_11 : IVec S_ 1 := constantI S_ 1 1#1
  let main_v32 : IVec S_ 1 := (fun x v => Host.reduce IntOp.andi x v reducesTo_S67x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x5 .f32) (main_arg1 : IVec S2x3200000 32) (main_arg2 : FVec F S100000x3 .f32) (main_arg3 : FVec F S5x64 .f32) (main_arg4 : FVec F S64 .f32) (main_arg5 : FVec F S64x64 .f32) (main_arg6 : FVec F S64 .f32) (main_arg7 : FVec F S67x64 .f32) (main_arg8 : FVec F S64 .f32) (main_arg9 : FVec F S64x64 .f32) (main_arg10 : FVec F S64 .f32) (main_arg11 : FVec F S64x30 .f32) (main_arg12 : FVec F S30 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S100000x3 .f32 := Host.absf main_arg2
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S5x64 .f32 := Host.absf main_arg3
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x5 : Shape := ⟨2, ![100000, 5]⟩
abbrev S2x3200000 : Shape := ⟨2, ![2, 3200000]⟩
abbrev S100000x3 : Shape := ⟨2, ![100000, 3]⟩
abbrev S5x64 : Shape := ⟨2, ![5, 64]⟩
abbrev S64 : Shape := ⟨1, ![64]⟩
abbrev S64x64 : Shape := ⟨2, ![64, 64]⟩
abbrev S67x64 : Shape := ⟨2, ![67, 64]⟩
abbrev S64x30 : Shape := ⟨2, ![64, 30]⟩
abbrev S30 : Shape := ⟨1, ![30]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S4000x5 : Shape := ⟨2, ![4000, 5]⟩
abbrev S4000x64 : Shape := ⟨2, ![4000, 64]⟩
abbrev S3300000x64 : Shape := ⟨2, ![3300000, 64]⟩
abbrev S1x64 : Shape := ⟨2, ![1, 64]⟩
abbrev S1x30 : Shape := ⟨2, ![1, 30]⟩
abbrev S3x64 : Shape := ⟨2, ![3, 64]⟩
abbrev S100000x30 : Shape := ⟨2, ![100000, 30]⟩
abbrev S4000x3 : Shape := ⟨2, ![4000, 3]⟩
abbrev S4000x30 : Shape := ⟨2, ![4000, 30]⟩

abbrev nBuf : Space → Nat
  | .hbm => 95
  | .vmem => 25
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S100000x3, .f32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S67x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x30, .f32⟩
  | .hbm, ⟨12, _⟩ => ⟨S30, .f32⟩
  | .hbm, ⟨13, _⟩ => ⟨S100000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S1x3200000, .i32⟩
  | .hbm, ⟨18, _⟩ => ⟨S3200000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x64, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x64, .f32⟩
  | .hbm, ⟨63, _⟩ => ⟨S3300000x1, .f32⟩
  | .hbm, ⟨64, _⟩ => ⟨S3300000x64, .f32⟩
  | .hbm, ⟨65, _⟩ => ⟨S3300000x64, .f32⟩
  | .hbm, ⟨66, _⟩ => ⟨S_, .f32⟩
  | .hbm, ⟨67, _⟩ => ⟨S100000x64, .f32⟩
  | .hbm, ⟨68, _⟩ => ⟨S3300000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S1x30, .f32⟩
  | .hbm, ⟨92, _⟩ => ⟨S64x64, .f32⟩
  | .hbm, ⟨93, _⟩ => ⟨S3x64, .f32⟩
  | .hbm, ⟨94, _⟩ => ⟨S100000x30, .f32⟩
  | .local _ .vmem, ⟨0, _⟩ => ⟨S4000x5, .f32⟩
  | .local _ .vmem, ⟨1, _⟩ => ⟨S4000x5, .f32⟩
  | .local _ .vmem, ⟨2, _⟩ => ⟨S5x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S1x64, .f32⟩
  | .local _ .vmem, ⟨14, _⟩ => ⟨S4000x3, .f32⟩
  | .local _ .vmem, ⟨15, _⟩ => ⟨S4000x3, .f32⟩
  | .local _ .vmem, ⟨16, _⟩ => ⟨S64x64, .f32⟩
  | .local _ .vmem, ⟨17, _⟩ => ⟨S3x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S64x30, .f32⟩
  | .local _ .vmem, ⟨22, _⟩ => ⟨S1x30, .f32⟩
  | .local _ .vmem, ⟨23, _⟩ => ⟨S4000x30, .f32⟩
  | .local _ .vmem, ⟨24, _⟩ => ⟨S4000x30, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg10_0 : Ref sig .tc := ⟨.vmem, 23, rfl⟩
abbrev cc2_stg10_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem10_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x30 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x30 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x30 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x5_S4000x5_0_0 : ∀ a, (![0, 0] : Fin 2 → Nat) a + S4000x5.size a ≤ S4000x5.size a
  h_S4000x5 : 0 < S4000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S30_S1x30 : S30.ShapeCasts S1x30
  slices_S67x64_S64x64_0_0 : S67x64.Slices ![0, 0] S64x64
  slices_S67x64_S3x64_64_0 : S67x64.Slices ![64, 0] S3x64
  inb_S4000x3_S4000x3_0_0 : ∀ a, (![0, 0] : Fin 2 → Nat) a + S4000x3.size a ≤ S4000x3.size a
  h_S4000x3 : 0 < S4000x3.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64x30_S64x30_0_0 : ∀ a, (![0, 0] : Fin 2 → Nat) a + S64x30.size a ≤ S64x30.size a
  h_S64x30 : 0 < S64x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S4000x30 : S1x30.Broadcasts S4000x30
  inb_S4000x30_S4000x30_0_0 : ∀ a, (![0, 0] : Fin 2 → Nat) a + S4000x30.size a ≤ S4000x30.size a
  h_S4000x30 : 0 < S4000x30.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x5_S5x64_S4000x64_1_0_0_1_n_n_wf : DotDims.WF S4000x5 S5x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  dot_S4000x3_S3x64_S4000x64_1_0_0_1_n_n_wf : DotDims.WF S4000x3 S3x64 S4000x64 [1] [0] [0] [1] [] []
  dot_S4000x64_S64x30_S4000x30_1_0_0_1_n_n_wf : DotDims.WF S4000x64 S64x30 S4000x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x5.size a ≤ S100000x5.size a
  hwx0_0 : ∀ i : grid0.Coords, EltTy.bits .f32 = 32 ∨ (Rect.block (s := S100000x5) S4000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x3.size a ≤ S100000x3.size a
  hwx2_2 : ∀ i : grid2.Coords, EltTy.bits .f32 = 32 ∨ (Rect.block (s := S100000x3) S4000x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x64.size a ≤ S3x64.size a
  hwx2_4 : ∀ i : grid2.Coords, EltTy.bits .f32 = 32 ∨ (Rect.block (s := S3x64) S3x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x30.size a ≤ S64x30.size a
  hwx2_8 : ∀ i : grid2.Coords, EltTy.bits .f32 = 32 ∨ (Rect.block (s := S64x30) S64x30.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x30.size a ≤ S1x30.size a
  hwx2_9 : ∀ i : grid2.Coords, EltTy.bits .f32 = 32 ∨ (Rect.block (s := S1x30) S1x30.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x30.size a ≤ S100000x30.size a
  hwx2_10 : ∀ i : grid2.Coords, EltTy.bits .f32 = 32 ∨ (Rect.block (s := S100000x30) S4000x30.size (cc2_transform_10 i) (hinb2_10 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x5_S5x64_S4000x64_1_0_0_1_n_n : DotDims S4000x5 S5x64 S4000x64 where
  lhsContracting := [1]
  rhsContracting := [0]
  lhsNonContracting := [0]
  rhsNonContracting := [1]
  lhsBatch := []
  rhsBatch := []
  wf := dot_S4000x5_S5x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def dot_S4000x64_S64x30_S4000x30_1_0_0_1_n_n : DotDims S4000x64 S64x30 S4000x30 where
  lhsContracting := [1]
  rhsContracting := [0]
  lhsNonContracting := [0]
  rhsNonContracting := [1]
  lhsBatch := []
  rhsBatch := []
  wf := dot_S4000x64_S64x30_S4000x30_1_0_0_1_n_n_wf

abbrev win0_0 : Pipeline.Window sig grid0 :=
  Pipeline.Window.ofSpec (Memref.whole main_arg0) S4000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S4000x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S3x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg11) S64x30.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v62) S1x30.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v65) S4000x30.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S100000x3 : Shape := ⟨2, ![100000, 3]⟩
abbrev S5x64 : Shape := ⟨2, ![5, 64]⟩
abbrev S64 : Shape := ⟨1, ![64]⟩
abbrev S64x64 : Shape := ⟨2, ![64, 64]⟩
abbrev S67x64 : Shape := ⟨2, ![67, 64]⟩
abbrev S64x30 : Shape := ⟨2, ![64, 30]⟩
abbrev S30 : Shape := ⟨1, ![30]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x67 : Shape := ⟨2, ![100000, 67]⟩
abbrev S100000x30 : Shape := ⟨2, ![100000, 30]⟩
abbrev S1x30 : Shape := ⟨2, ![1, 30]⟩

abbrev nBuf : Space → Nat
  | .hbm => 118
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S100000x3, .f32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S67x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x30, .f32⟩
  | .hbm, ⟨12, _⟩ => ⟨S30, .f32⟩
  | .hbm, ⟨13, _⟩ => ⟨S100000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S1x3200000, .i32⟩
  | .hbm, ⟨18, _⟩ => ⟨S3200000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x64, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x64, .f32⟩
  | .hbm, ⟨63, _⟩ => ⟨S3300000x1, .f32⟩
  | .hbm, ⟨64, _⟩ => ⟨S3300000x64, .f32⟩
  | .hbm, ⟨65, _⟩ => ⟨S3300000x64, .f32⟩
  | .hbm, ⟨66, _⟩ => ⟨S_, .f32⟩
  | .hbm, ⟨67, _⟩ => ⟨S100000x64, .f32⟩
  | .hbm, ⟨68, _⟩ => ⟨S3300000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000x64, .f32⟩
  | .hbm, ⟨86, _⟩ => ⟨S3300000x1, .f32⟩
  | .hbm, ⟨87, _⟩ => ⟨S3300000x64, .f32⟩
  | .hbm, ⟨88, _⟩ => ⟨S3300000x64, .f32⟩
  | .hbm, ⟨89, _⟩ => ⟨S_, .f32⟩
  | .hbm, ⟨90, _⟩ => ⟨S100000x64, .f32⟩
  | .hbm, ⟨91, _⟩ => ⟨S3300000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S100000x67, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | .hbm, ⟨114, _⟩ => ⟨S100000x30, .f32⟩
  | .hbm, ⟨115, _⟩ => ⟨S1x30, .f32⟩
  | .hbm, ⟨116, _⟩ => ⟨S100000x30, .f32⟩
  | .hbm, ⟨117, _⟩ => ⟨S100000x30, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call4_cst : Ref sig .tc := ⟨.hbm, 111, rfl⟩
abbrev main_call4_v0 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x3_S100000x67_d1 : Shape.Concatenates [S100000x64, S100000x3] S100000x67 1
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x5_S5x64_S100000x64_1_0_0_1_n_n_wf : DotDims.WF S100000x5 S5x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x67_S67x64_S100000x64_1_0_0_1_n_n_wf : DotDims.WF S100000x67 S67x64 S100000x64 [1] [0] [0] [1] [] []
  dot_S100000x64_S64x30_S100000x30_1_0_0_1_n_n_wf : DotDims.WF S100000x64 S64x30 S100000x30 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x67_S67x64_S100000x64_1_0_0_1_n_n : DotDims S100000x67 S67x64 S100000x64 where
  lhsContracting := [1]
  rhsContracting := [0]
  lhsNonContracting := [0]
  rhsNonContracting := [1]
  lhsBatch := []
  rhsBatch := []
  wf := dot_S100000x67_S67x64_S100000x64_1_0_0_1_n_n_wf
def dot_S100000x64_S64x30_S100000x30_1_0_0_1_n_n : DotDims S100000x64 S64x30 S100000x30 where
  lhsContracting := [1]
  rhsContracting := [0]
  lhsNonContracting := [0]
  rhsNonContracting := [1]
  lhsBatch := []
  rhsBatch := []
  wf := dot_S100000x64_S64x30_S100000x30_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«108752_j88218628260670_1_alg».proof.Proof.LibPlainMatmul
import proofs.«108752_j88218628260670_1_alg».proof.Proof.LibHostReads
import proofs.«108752_j88218628260670_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«108752_j88218628260670_1_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibSplitDense.lean ====
/-
  A matrix product whose inner axis is a concatenation.

  Let A have M rows and K₁ columns, B have M rows and K₂ columns, and W have K₁ + K₂ rows and N columns. Laying A and B
  side by side gives a matrix [A | B] of M rows and K₁ + K₂ columns, and

      [A | B] · W  =  A · W_top + B · W_bottom ,

  where W_top is the first K₁ rows of W and W_bottom the remaining K₂: entry (i, n) of the left side is a sum over
  K₁ + K₂ terms, the first K₁ of which read A and the top of W and the last K₂ of which read B and the bottom of W.
  Splitting a finite sum at a position uses only that addition is associative and commutative, so the law holds on
  the extended reals with no finiteness assumption.
-/
import Idealize.ShloMosaic.PureOps.Ideal.Laws
import Idealize.ShloMosaic.Lib.Pipeline.Value
import Idealize.ShloMosaic.Lib.ValueIdx
import Mathlib.Algebra.BigOperators.Fin
import proofs.«108752_j88218628260670_1_alg».proof.Proof.LibHostReads

noncomputable section

open scoped BigOperators

namespace Cert.SplitDense

open Idealize.ShloMosaic Idealize.ShloMosaic.ValueIdx

/-- Entry (i, k) of [A | B] for a column k among the first K₁ is entry (i, k) of A. -/
theorem concat_left {α : Type} {M K₁ K₂ : Nat} (A : (⟨2, ![M, K₁]⟩ : Shape).Idx → α) (B : (⟨2, ![M, K₂]⟩ : Shape).Idx → α)
    (hc : Shape.Concatenates [(⟨2, ![M, K₁]⟩ : Shape), ⟨2, ![M, K₂]⟩] ⟨2, ![M, K₁ + K₂]⟩ 1) (i : Fin M) (k : Fin K₁) :
    concatenate ⟨2, ![M, K₁ + K₂]⟩ 1 [⟨⟨2, ![M, K₁]⟩, A⟩, ⟨⟨2, ![M, K₂]⟩, B⟩] hc (ix2 i (Fin.castAdd K₂ k)) = A (ix2 i k) := by
  refine concatenate_pair_apply_left (1 : Fin 2) A B hc (ix2 i (Fin.castAdd K₂ k)) rfl (ix2 i k) fun b => ?_
  match b with
  | ⟨0, _⟩ => rfl
  | ⟨1, _⟩ => rfl

/-- Entry (i, K₁ + k) of [A | B] is entry (i, k) of B. -/
theorem concat_right {α : Type} {M K₁ K₂ : Nat} (A : (⟨2, ![M, K₁]⟩ : Shape).Idx → α) (B : (⟨2, ![M, K₂]⟩ : Shape).Idx → α)
    (hc : Shape.Concatenates [(⟨2, ![M, K₁]⟩ : Shape), ⟨2, ![M, K₂]⟩] ⟨2, ![M, K₁ + K₂]⟩ 1) (i : Fin M) (k : Fin K₂) :
    concatenate ⟨2, ![M, K₁ + K₂]⟩ 1 [⟨⟨2, ![M, K₁]⟩, A⟩, ⟨⟨2, ![M, K₂]⟩, B⟩] hc (ix2 i (Fin.natAdd K₁ k)) = B (ix2 i k) := by
  refine concatenate_pair_apply_right (1 : Fin 2) A B hc (ix2 i (Fin.natAdd K₁ k)) rfl rfl (ix2 i k) (fun b hb => ?_) ?_
  · match b with
    | ⟨0, _⟩ => rfl
    | ⟨1, _⟩ => exact absurd rfl hb
  · show k.val + K₁ = K₁ + k.val
    omega

/-- Row k of the first K₁ rows of W is row k of W. -/
theorem top_apply {α : Type} {K₁ K₂ N : Nat} (W : (⟨2, ![K₁ + K₂, N]⟩ : Shape).Idx → α)
    (hs : (⟨2, ![K₁ + K₂, N]⟩ : Shape).Slices ![0, 0] ⟨2, ![K₁, N]⟩) (k : Fin K₁) (n : Fin N) :
    extractStridedSlice ⟨2, ![K₁, N]⟩ ![0, 0] W hs (ix2 k n) = W (ix2 (Fin.castAdd K₂ k) n) := by
  refine extractStridedSlice_apply ![0, 0] W hs (ix2 k n) (ix2 (Fin.castAdd K₂ k) n) fun a => ?_
  match a with
  | ⟨0, _⟩ => show k.val = 0 + k.val; omega
  | ⟨1, _⟩ => show n.val = 0 + n.val; omega

/-- Row k of the last K₂ rows of W is row K₁ + k of W. -/
theorem bottom_apply {α : Type} {K₁ K₂ N : Nat} (W : (⟨2, ![K₁ + K₂, N]⟩ : Shape).Idx → α)
    (hs : (⟨2, ![K₁ + K₂, N]⟩ : Shape).Slices ![K₁, 0] ⟨2, ![K₂, N]⟩) (k : Fin K₂) (n : Fin N) :
    extractStridedSlice ⟨2, ![K₂, N]⟩ ![K₁, 0] W hs (ix2 k n) = W (ix2 (Fin.natAdd K₁ k) n) := by
  refine extractStridedSlice_apply ![K₁, 0] W hs (ix2 k n) (ix2 (Fin.natAdd K₁ k) n) fun a => ?_
  match a with
  | ⟨0, _⟩ => rfl
  | ⟨1, _⟩ => show n.val = 0 + n.val; omega

/-- [A | B] · W = A · W_top + B · W_bottom, entry by entry on the extended reals. -/
theorem dot_concat (M K₁ K₂ N : Nat) (A : FVec Ideal ⟨2, ![M, K₁]⟩ .f32) (B : FVec Ideal ⟨2, ![M, K₂]⟩ .f32)
    (W : FVec Ideal ⟨2, ![K₁ + K₂, N]⟩ .f32)
    (hc : Shape.Concatenates [(⟨2, ![M, K₁]⟩ : Shape), ⟨2, ![M, K₂]⟩] ⟨2, ![M, K₁ + K₂]⟩ 1)
    (hs₁ : (⟨2, ![K₁ + K₂, N]⟩ : Shape).Slices ![0, 0] ⟨2, ![K₁, N]⟩)
    (hs₂ : (⟨2, ![K₁ + K₂, N]⟩ : Shape).Slices ![K₁, 0] ⟨2, ![K₂, N]⟩) :
    Host.dotGeneral (F := Ideal) (DotDims.plain M (K₁ + K₂) N) none
        (concatenate ⟨2, ![M, K₁ + K₂]⟩ 1 [⟨⟨2, ![M, K₁]⟩, A⟩, ⟨⟨2, ![M, K₂]⟩, B⟩] hc) W
      = addf (Host.dotGeneral (F := Ideal) (DotDims.plain M K₁ N) none A (extractStridedSlice ⟨2, ![K₁, N]⟩ ![0, 0] W hs₁))
          (Host.dotGeneral (F := Ideal) (DotDims.plain M K₂ N) none B (extractStridedSlice ⟨2, ![K₂, N]⟩ ![K₁, 0] W hs₂)) := by
  funext j
  obtain ⟨i, n, rfl⟩ : ∃ (i : Fin M) (n : Fin N), j = ix2 i n := ⟨j 0, j 1, eq_ix2 j⟩
  show _ = Host.dotGeneral (F := Ideal) (DotDims.plain M K₁ N) none A _ (ix2 i n)
      + Host.dotGeneral (F := Ideal) (DotDims.plain M K₂ N) none B _ (ix2 i n)
  rw [Cert.LibHostReads.dotGeneral_plain_apply, Cert.LibHostReads.dotGeneral_plain_apply,
    Cert.LibHostReads.dotGeneral_plain_apply, Fin.sum_univ_add]
  refine congrArg₂ (· + ·) (Finset.sum_congr rfl fun k _ => ?_) (Finset.sum_congr rfl fun k _ => ?_)
  · rw [concat_left A B hc i k, top_apply W hs₁ k n]
  · rw [concat_right A B hc i k, bottom_apply W hs₂ k n]

end Cert.SplitDense

end
-- ==== Proof.Spec.lean ====
/-
  A two-layer graph convolution followed by a three-layer perceptron, as whole-array functions on the extended reals.

  The graph has 100000 nodes and an edge list e of 3200000 (source, destination) pairs, to which one loop per node is
  appended (3300000 entries in all). With deg the number of entries arriving at a node, the weight of entry k is
  dinv(src k) · dinv(dst k), dinv = deg^(-1/2) where deg > 0 and 0 elsewhere. One propagation step sends a table t of
  node rows to

      agg t e  =  Σ over entries k with destination r of  weight(k) · t(src k, ·)          (row r).

  The network is
      a₁  = max(agg (x · W₁) e + b₁, 0)
      a₂  = max(agg (a₁ · W₂) e + b₂, 0)
      out = max(max(z + bf₁, 0) · Wf₂ + bf₂, 0) · Wo + bo ,
  where z is [a₂ | g] · Wf₁ (the node rows a₂ and the three extra features g side by side, times a 67-row table) in
  one spelling and a₂ · Wf₁[0:64] + g · Wf₁[64:67] in the other. The two spellings of z are equal entry by entry (a sum
  over 67 terms split after the 64th), which is all that separates the two programs.
-/
import proofs.«108752_j88218628260670_1_alg».proof.Proof.Gen.KernelIdeal
import proofs.«108752_j88218628260670_1_alg».proof.Proof.Gen.ReferenceIdeal
import Idealize.ShloMosaic.PureOps.Ideal
import proofs.«108752_j88218628260670_1_alg».proof.Proof.LibBlockRows
import proofs.«108752_j88218628260670_1_alg».proof.Proof.LibRowLayers
import proofs.«108752_j88218628260670_1_alg».proof.Proof.LibSplitDense

noncomputable section

namespace Cert.Gcn

open Idealize.ShloMosaic Cert.KernelIdeal Cert.KernelIdeal.Gen Cert.BlockRows Cert.RowLayers

/-- Row 0 of the edge list (the sources) followed by the loops 0, 1, …, 99999. -/
def srcOf (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row 1 of the edge list (the destinations) followed by the loops. -/
def dstOf (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative index word counts from the end: 100000 is added to it. -/
def wrap (s : IVec S3300000 32) : IVec S3300000 32 :=
  select (cmpi .slt s (broadcastInDim S3300000 ![] bcast_S_S3300000 (constantI S_ 32 0#32))) (addi s (broadcastInDim S3300000 ![] bcast_S_S3300000 (constantI S_ 32 100000#32))) s

/-- How many entries arrive at each node: ones summed by destination. -/
def degOf (d : IVec S3300000 32) : FVec Ideal S100000 .f32 :=
  Host.scatterAdd scatter_S100000_S3300000x1_S3300000_n_0_0_1 (broadcastInDim S100000 ![] bcast_S_S100000 (constant (F := Ideal) S_ .f32 0x00000000#32)) (broadcastInDim S3300000x1 ![0] bcast_S3300000_S3300000x1_0 d) (broadcastInDim S3300000 ![] bcast_S_S3300000 (constant (F := Ideal) S_ .f32 0x3F800000#32))

/-- deg^(-1/2) where deg > 0, zero elsewhere, from the table of degrees. -/
def dinvW (g : FVec Ideal S100000 .f32) : FVec Ideal S100000 .f32 :=
  select (cmpf .ogt g (broadcastInDim S100000 ![] bcast_S_S100000 (constant (F := Ideal) S_ .f32 0x00000000#32))) (Host.rsqrt g) (broadcastInDim S100000 ![] bcast_S_S100000 (id (constant (F := Ideal) S_ .f32 0x00000000#32)))

/-- deg^(-1/2) where deg > 0, zero elsewhere. -/
def dinvOf (d : IVec S3300000 32) : FVec Ideal S100000 .f32 :=
  dinvW (degOf d)

/-- The weight of each entry from a table of node factors: the factor at its source times the factor at its destination. -/
def normW (f : FVec Ideal S100000 .f32) (s d : IVec S3300000 32) : FVec Ideal S3300000 .f32 :=
  mulf (Host.gather gather_S100000_S3300000x1_S3300000_n_0_n_n_0_1_1 f (broadcastInDim S3300000x1 ![0] bcast_S3300000_S3300000x1_0 (wrap s))) (Host.gather gather_S100000_S3300000x1_S3300000_n_0_n_n_0_1_1 f (broadcastInDim S3300000x1 ![0] bcast_S3300000_S3300000x1_0 (wrap d)))

/-- The weight of each entry: dinv at its source times dinv at its destination. -/
def normOf (s d : IVec S3300000 32) : FVec Ideal S3300000 .f32 :=
  normW (dinvOf d) s d

/-- One propagation step from index words and weights: rows gathered at the sources, scaled, summed by destination. -/
def aggW (t : FVec Ideal S100000x64 .f32) (s d : IVec S3300000 32) (w : FVec Ideal S3300000 .f32) : FVec Ideal S100000x64 .f32 :=
  Host.scatterAdd scatter_S100000x64_S3300000x1_S3300000x64_1_0_0_1 (broadcastInDim S100000x64 ![] bcast_S_S100000x64 (constant (F := Ideal) S_ .f32 0x00000000#32)) (broadcastInDim S3300000x1 ![0] bcast_S3300000_S3300000x1_0 d) (mulf (Host.gather gather_S100000x64_S3300000x1_S3300000x64_1_0_n_n_0_1_164 t (broadcastInDim S3300000x1 ![0] bcast_S3300000_S3300000x1_0 (wrap s))) (broadcastInDim S3300000x64 ![0, 1] bcast_S3300000x1_S3300000x64_0_1 (broadcastInDim S3300000x1 ![0] bcast_S3300000_S3300000x1_0 w)))

/-- One propagation step of a table over the edge list. -/
def agg (t : FVec Ideal S100000x64 .f32) (e : IVec S2x3200000 32) : FVec Ideal S100000x64 .f32 :=
  aggW t (srcOf e) (dstOf e) (normOf (srcOf e) (dstOf e))

/-- A one-row matrix of 64 numbers laid out over all node rows. -/
abbrev rowBias64 (B : FVec Ideal S1x64 .f32) : FVec Ideal S100000x64 .f32 :=
  rowBias (M := 100000) (N := 64) Cert.ReferenceIdeal.Gen.bcast_S1x64_S100000x64_0_1 B

/-- A one-row matrix of 30 numbers laid out over all node rows. -/
abbrev rowBias30 (B : FVec Ideal S1x30 .f32) : FVec Ideal S100000x30 .f32 :=
  rowBias (M := 100000) (N := 30) Cert.ReferenceIdeal.Gen.bcast_S1x30_S100000x30_0_1 B

/-- A bias vector of 64 numbers laid out over all node rows: first as one row, then down the rows. -/
def bias64 (b : FVec Ideal S64 .f32) : FVec Ideal S100000x64 .f32 :=
  rowBias64 (broadcastInDim (⟨2, ![1, 64]⟩ : Shape) ![1] Cert.ReferenceIdeal.Gen.bcast_S64_S1x64_1 b)

/-- A bias vector of 30 numbers laid out over all node rows. -/
def bias30 (b : FVec Ideal S30 .f32) : FVec Ideal S100000x30 .f32 :=
  rowBias30 (broadcastInDim (⟨2, ![1, 30]⟩ : Shape) ![1] Cert.ReferenceIdeal.Gen.bcast_S30_S1x30_1 b)

/-- The vector reshaped to one row and laid out over the rows is the same bias matrix. -/
theorem rowBias64_reshape (b : FVec Ideal S64 .f32) : rowBias64 (shapeCast S1x64 b shapeCasts_S64_S1x64) = bias64 b := by
  unfold bias64
  rw [reshape_row (N := 64) b shapeCasts_S64_S1x64 Cert.ReferenceIdeal.Gen.bcast_S64_S1x64_1]

theorem rowBias30_reshape (b : FVec Ideal S30 .f32) : rowBias30 (shapeCast S1x30 b shapeCasts_S30_S1x30) = bias30 b := by
  unfold bias30
  rw [reshape_row (N := 30) b shapeCasts_S30_S1x30 Cert.ReferenceIdeal.Gen.bcast_S30_S1x30_1]

/-- max(·, 0) on a table of node rows. -/
abbrev relu64 (Y : FVec Ideal S100000x64 .f32) : FVec Ideal S100000x64 .f32 :=
  relu (M := 100000) (N := 64) bcast_S_S100000x64 Y

/-- The second convolution's activations a₂ from the inputs. -/
def hidden (x : FVec Ideal S100000x5 .f32) (e : IVec S2x3200000 32) (W1 : FVec Ideal S5x64 .f32) (b1 : FVec Ideal S64 .f32)
    (W2 : FVec Ideal S64x64 .f32) (b2 : FVec Ideal S64 .f32) : FVec Ideal S100000x64 .f32 :=
  relu64 (addf (agg (propagate (M := 100000) (K := 64) (N := 64)
    (relu64 (addf (agg (propagate (M := 100000) (K := 5) (N := 64) x W1) e) (bias64 b1))) W2) e) (bias64 b2))

/-- The perceptron's last two layers from the first layer's pre-activation z (before its bias). -/
def tail (z : FVec Ideal S100000x64 .f32) (bf1 : FVec Ideal S64 .f32) (Wf2 : FVec Ideal S64x64 .f32) (bf2 : FVec Ideal S64 .f32)
    (Wo : FVec Ideal S64x30 .f32) (bo : FVec Ideal S30 .f32) : FVec Ideal S100000x30 .f32 :=
  addf (propagate (M := 100000) (K := 64) (N := 30)
    (relu64 (addf (propagate (M := 100000) (K := 64) (N := 64) (relu64 (addf z (bias64 bf1))) Wf2) (bias64 bf2))) Wo) (bias30 bo)

/-- z with the weight table cut in two: a₂ · Wf₁[0:64] + g · Wf₁[64:67]. -/
def zSplit (a2 : FVec Ideal S100000x64 .f32) (g : FVec Ideal S100000x3 .f32) (Wf1 : FVec Ideal S67x64 .f32) : FVec Ideal S100000x64 .f32 :=
  addf (propagate (M := 100000) (K := 64) (N := 64) a2 (extractStridedSlice S64x64 ![0, 0] Wf1 slices_S67x64_S64x64_0_0))
    (propagate (M := 100000) (K := 3) (N := 64) g (extractStridedSlice S3x64 ![64, 0] Wf1 slices_S67x64_S3x64_64_0))

/-- z with the inputs joined: [a₂ | g] · Wf₁. -/
def zJoined (a2 : FVec Ideal S100000x64 .f32) (g : FVec Ideal S100000x3 .f32) (Wf1 : FVec Ideal S67x64 .f32) : FVec Ideal S100000x64 .f32 :=
  Host.dotGeneral (F := Ideal) (DotDims.plain 100000 67 64) none
    (concatenate (⟨2, ![100000, 67]⟩ : Shape) 1 [⟨S100000x64, a2⟩, ⟨S100000x3, g⟩] Cert.ReferenceIdeal.Gen.concatenates_S100000x64_S100000x3_S100000x67_d1) Wf1

/-- The two spellings of z agree: the 67-term sum splits after its 64th term. -/
theorem zJoined_eq_zSplit (a2 : FVec Ideal S100000x64 .f32) (g : FVec Ideal S100000x3 .f32) (Wf1 : FVec Ideal S67x64 .f32) :
    zJoined a2 g Wf1 = zSplit a2 g Wf1 :=
  Cert.SplitDense.dot_concat 100000 64 3 64 a2 g Wf1 _ _ _

/-- The whole network with z in the split spelling. -/
def netSplit (x : FVec Ideal S100000x5 .f32) (e : IVec S2x3200000 32) (g : FVec Ideal S100000x3 .f32) (W1 : FVec Ideal S5x64 .f32)
    (b1 : FVec Ideal S64 .f32) (W2 : FVec Ideal S64x64 .f32) (b2 : FVec Ideal S64 .f32) (Wf1 : FVec Ideal S67x64 .f32)
    (bf1 : FVec Ideal S64 .f32) (Wf2 : FVec Ideal S64x64 .f32) (bf2 : FVec Ideal S64 .f32) (Wo : FVec Ideal S64x30 .f32)
    (bo : FVec Ideal S30 .f32) : FVec Ideal S100000x30 .f32 :=
  tail (zSplit (hidden x e W1 b1 W2 b2) g Wf1) bf1 Wf2 bf2 Wo bo

/-- The whole network with z in the joined spelling. -/
def netJoined (x : FVec Ideal S100000x5 .f32) (e : IVec S2x3200000 32) (g : FVec Ideal S100000x3 .f32) (W1 : FVec Ideal S5x64 .f32)
    (b1 : FVec Ideal S64 .f32) (W2 : FVec Ideal S64x64 .f32) (b2 : FVec Ideal S64 .f32) (Wf1 : FVec Ideal S67x64 .f32)
    (bf1 : FVec Ideal S64 .f32) (Wf2 : FVec Ideal S64x64 .f32) (bf2 : FVec Ideal S64 .f32) (Wo : FVec Ideal S64x30 .f32)
    (bo : FVec Ideal S30 .f32) : FVec Ideal S100000x30 .f32 :=
  tail (zJoined (hidden x e W1 b1 W2 b2) g Wf1) bf1 Wf2 bf2 Wo bo

/-- The two networks are one function of the inputs. -/
theorem netJoined_eq_netSplit (x : FVec Ideal S100000x5 .f32) (e : IVec S2x3200000 32) (g : FVec Ideal S100000x3 .f32)
    (W1 : FVec Ideal S5x64 .f32) (b1 : FVec Ideal S64 .f32) (W2 : FVec Ideal S64x64 .f32) (b2 : FVec Ideal S64 .f32)
    (Wf1 : FVec Ideal S67x64 .f32) (bf1 : FVec Ideal S64 .f32) (Wf2 : FVec Ideal S64x64 .f32) (bf2 : FVec Ideal S64 .f32)
    (Wo : FVec Ideal S64x30 .f32) (bo : FVec Ideal S30 .f32) :
    netJoined x e g W1 b1 W2 b2 Wf1 bf1 Wf2 bf2 Wo bo = netSplit x e g W1 b1 W2 b2 Wf1 bf1 Wf2 bf2 Wo bo := by
  unfold netJoined netSplit
  rw [zJoined_eq_zSplit]

end Cert.Gcn

end
-- ==== Proof.KernelRun.lean ====
/-
  The idealized kernel's run with its result named.

  @main is eight segments: three stretches of host operations, a launch, a stretch, a launch, a stretch, a launch. The
  buffer contents at each boundary are a fold from the launch memory (a stretch rewrites the buffers its operations
  write, a launch rewrites its windows' arrays by what its points write back), ending at the contents W8. Every weakly
  fair execution terminates, without a fault, in a state whose unscoped buffers hold exactly W8: so the result buffer
  holds W8 at its own reference, and each argument buffer holds what it held at launch.
-/
import proofs.«108752_j88218628260670_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from any memory with zero counters terminates, nothing faulting, with the
    result buffer at the last boundary's contents and every argument array as launched. -/
theorem run_value : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Run

end
-- ==== Proof.Regions.lean ====
/-
  What each of the three kernel launches leaves in its output array, as one function of the arrays it finds.

  Every launch walks 25 grid points; point t loads rows 4000·t … 4000·t + 3999 of its node tables, the whole of its
  weight tables and bias rows, computes, and writes rows 4000·t … 4000·t + 3999 of its output. Each computation acts on
  every row separately (a product with a fixed right factor, a bias row, a maximum with zero), so what point t writes is
  rows 4000·t … of the same computation done on the whole tables, and since the 25 blocks cover the 100000 rows the
  output array ends as that whole-table function:
    launch 0:  X · W
    launch 1:  max(X + B, 0) · W
    launch 2:  max(max(max(X + B₂, 0) · Wa + G · Wb + Bf₁, 0) · Wf₂ + Bf₂, 0) · Wo + Bo .
-/
import proofs.«108752_j88218628260670_1_alg».proof.Proof.Gen.KernelIdeal.Frame
import proofs.«108752_j88218628260670_1_alg».proof.Proof.Spec
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.BlockRows Cert.RowLayers Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- Rows 4000·q, …, 4000·q + 3999 of a table of 100000 rows, for a block number q ≤ 24. -/
def rowsAt (q : Nat) (hq : q ≤ 24) : Fin 4000 → Fin 100000 := fun p => ⟨q * 4000 + 1 * p.val, by have := p.isLt; omega⟩

/-! ## Region 0: the index maps, the blocks, the cover -/

/-- The output's block index: one block of 4000 rows per point, in range, all columns. -/
theorem idx0_out : ∀ t : Fin cfg0.N, win0_2.index t (0 : Fin 2) ≤ 24 ∧ win0_2.index t (1 : Fin 2) = 0 :=
  (by decide +kernel : ∀ t : Fin grid0.N, _)
/-- Every block of rows is some point's. -/
theorem onto0 : ∀ q : Fin 25, ∃ t : Fin cfg0.N, win0_2.index t (0 : Fin 2) = q.val :=
  (by decide +kernel : ∀ q : Fin 25, ∃ t : Fin grid0.N, win0_2.index t (0 : Fin 2) = q.val)
/-- The rows of the node tables that point `t` works on. -/
def rho0 (t : Fin cfg0.N) : Fin 4000 → Fin 100000 := rowsAt (win0_2.index t (0 : Fin 2)) (idx0_out t).1

/-- Window 0 moves with the output: the same block of rows, all columns. -/
theorem idx0_0 : ∀ t : Fin cfg0.N, win0_0.index t (0 : Fin 2) = win0_2.index t (0 : Fin 2) ∧ win0_0.index t (1 : Fin 2) = 0 :=
  (by decide +kernel : ∀ t : Fin grid0.N, _)
/-- Its block at point `t` is the point's rows of its array. -/
theorem iblk0_0_eq (c : Dev nD) (t : Fin cfg0.N) :
    iblk0 V c 0 t = rowsOf (rho0 t) (V c main_arg0 : FVec Ideal S100000x5 .f32) := by
  funext j
  obtain ⟨e0, e1⟩ := idx0_0 t
  show V c main_arg0 (((cfg0.win 0).blk t).view.emb j) = V c main_arg0 (ix2 (rho0 t (j 0)) (j 1))
  refine congrArg (V c main_arg0) (funext fun a => Fin.ext ?_)
  match a with
  | ⟨0, _⟩ => show win0_0.index t (0 : Fin 2) * 4000 + 1 * (j 0).val = win0_2.index t (0 : Fin 2) * 4000 + 1 * (j 0).val; rw [e0]
  | ⟨1, _⟩ => show win0_0.index t (1 : Fin 2) * 5 + 1 * (j 1).val = (j 1).val; rw [e1]; omega

/-- Window 1 is its whole array at every point. -/
theorem idx0_1 : ∀ t : Fin cfg0.N, win0_1.index t (0 : Fin 2) = 0 ∧ win0_1.index t (1 : Fin 2) = 0 :=
  (by decide +kernel : ∀ t : Fin grid0.N, _)
theorem iblk0_1_eq (c : Dev nD) (t : Fin cfg0.N) : iblk0 V c 1 t = (V c main_arg3 : FVec Ideal S5x64 .f32) := by
  funext j
  obtain ⟨e0, e1⟩ := idx0_1 t
  show V c main_arg3 (((cfg0.win 1).blk t).view.emb j) = V c main_arg3 j
  refine congrArg (V c main_arg3) (funext fun a => Fin.ext ?_)
  match a with
  | ⟨0, _⟩ => show win0_1.index t (0 : Fin 2) * 5 + 1 * (j 0).val = (j 0).val; rw [e0]; omega
  | ⟨1, _⟩ => show win0_1.index t (1 : Fin 2) * 64 + 1 * (j 1).val = (j 1).val; rw [e1]; omega

/-- A whole table read through the output's block at point `t` is the point's rows of the table. -/
theorem read0 (t : Fin cfg0.N) (G : FVec Ideal S100000x64 .f32) :
    ((cfg0.win 2).blk t).view.read (Elt Ideal) G = rowsOf (rho0 t) G := by
  funext j
  obtain ⟨e0, e1⟩ := idx0_out t
  show G (((cfg0.win 2).blk t).view.emb j) = G (ix2 (rho0 t (j 0)) (j 1))
  refine congrArg G (funext fun a => Fin.ext ?_)
  match a with
  | ⟨0, _⟩ => rfl
  | ⟨1, _⟩ => show win0_2.index t (1 : Fin 2) * 64 + 1 * (j 1).val = (j 1).val; rw [e1]; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- The 25 blocks of 4000 rows cover the 100000 rows: row r is in block r / 4000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 4000, by omega⟩
  obtain ⟨e0, e1⟩ := idx0_out t
  have q0 : win0_2.index t (0 : Fin 2) = (i 0).val / 4000 := ht
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The product X · W on whole tables. -/
def G0 (X : FVec Ideal S100000x5 .f32) (W : FVec Ideal S5x64 .f32) : FVec Ideal S100000x64 .f32 :=
  propagate (M := 100000) (K := 5) (N := 64) X W

/-- What point `t` of launch 0 writes back is its rows of X · W. -/
theorem flushed0 (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz2]
  simp only [View.ld_unit_zero (S := S4000x5) hz2, View.ld_unit_zero (S := S5x64) hz2]
  rw [read0, iblk0_0_eq, iblk0_1_eq]
  dsimp only [k0_pay1]
  exact matmul_of_rows (rho0 t) _ _ _ _ (trunc_of_rows (rho0 t) _ _ _ rfl) (trunc_whole _ _ _ rfl)

/-- Launch 0's output array after the run. -/
theorem final0 (c : Dev nD) : (dat0 V c).arrAt 2 cfg0.N = G0 (V c main_arg0) (V c main_arg3) :=
  (dat0 V c).arrAt_eq_of_cover 2 _ (fun t _ => flushed0 V c t) cover0

/-! ## Region 1: the index maps, the blocks, the cover -/

/-- The output's block index: one block of 4000 rows per point, in range, all columns. -/
theorem idx1_out : ∀ t : Fin cfg1.N, win1_3.index t (0 : Fin 2) ≤ 24 ∧ win1_3.index t (1 : Fin 2) = 0 :=
  (by decide +kernel : ∀ t : Fin grid1.N, _)
/-- Every block of rows is some point's. -/
theorem onto1 : ∀ q : Fin 25, ∃ t : Fin cfg1.N, win1_3.index t (0 : Fin 2) = q.val :=
  (by decide +kernel : ∀ q : Fin 25, ∃ t : Fin grid1.N, win1_3.index t (0 : Fin 2) = q.val)
/-- The rows of the node tables that point `t` works on. -/
def rho1 (t : Fin cfg1.N) : Fin 4000 → Fin 100000 := rowsAt (win1_3.index t (0 : Fin 2)) (idx1_out t).1

/-- Window 0 moves with the output: the same block of rows, all columns. -/
theorem idx1_0 : ∀ t : Fin cfg1.N, win1_0.index t (0 : Fin 2) = win1_3.index t (0 : Fin 2) ∧ win1_0.index t (1 : Fin 2) = 0 :=
  (by decide +kernel : ∀ t : Fin grid1.N, _)
/-- Its block at point `t` is the point's rows of its array. -/
theorem iblk1_0_eq (c : Dev nD) (t : Fin cfg1.N) :
    iblk1 V c 0 t = rowsOf (rho1 t) (V c main_v43 : FVec Ideal S100000x64 .f32) := by
  funext j
  obtain ⟨e0, e1⟩ := idx1_0 t
  show V c main_v43 (((cfg1.win 0).blk t).view.emb j) = V c main_v43 (ix2 (rho1 t (j 0)) (j 1))
  refine congrArg (V c main_v43) (funext fun a => Fin.ext ?_)
  match a with
  | ⟨0, _⟩ => show win1_0.index t (0 : Fin 2) * 4000 + 1 * (j 0).val = win1_3.index t (0 : Fin 2) * 4000 + 1 * (j 0).val; rw [e0]
  | ⟨1, _⟩ => show win1_0.index t (1 : Fin 2) * 64 + 1 * (j 1).val = (j 1).val; rw [e1]; omega

/-- Window 1 is its whole array at every point. -/
theorem idx1_1 : ∀ t : Fin cfg1.N, win1_1.index t (0 : Fin 2) = 0 ∧ win1_1.index t (1 : Fin 2) = 0 :=
  (by decide +kernel : ∀ t : Fin grid1.N, _)
theorem iblk1_1_eq (c : Dev nD) (t : Fin cfg1.N) : iblk1 V c 1 t = (V c main_v44 : FVec Ideal S1x64 .f32) := by
  funext j
  obtain ⟨e0, e1⟩ := idx1_1 t
  show V c main_v44 (((cfg1.win 1).blk t).view.emb j) = V c main_v44 j
  refine congrArg (V c main_v44) (funext fun a => Fin.ext ?_)
  match a with
  | ⟨0, _⟩ => show win1_1.index t (0 : Fin 2) * 1 + 1 * (j 0).val = (j 0).val; rw [e0]; omega
  | ⟨1, _⟩ => show win1_1.index t (1 : Fin 2) * 64 + 1 * (j 1).val = (j 1).val; rw [e1]; omega

/-- Window 2 is its whole array at every point. -/
theorem idx1_2 : ∀ t : Fin cfg1.N, win1_2.index t (0 : Fin 2) = 0 ∧ win1_2.index t (1 : Fin 2) = 0 :=
  (by decide +kernel : ∀ t : Fin grid1.N, _)
theorem iblk1_2_eq (c : Dev nD) (t : Fin cfg1.N) : iblk1 V c 2 t = (V c main_arg5 : FVec Ideal S64x64 .f32) := by
  funext j
  obtain ⟨e0, e1⟩ := idx1_2 t
  show V c main_arg5 (((cfg1.win 2).blk t).view.emb j) = V c main_arg5 j
  refine congrArg (V c main_arg5) (funext fun a => Fin.ext ?_)
  match a with
  | ⟨0, _⟩ => show win1_2.index t (0 : Fin 2) * 64 + 1 * (j 0).val = (j 0).val; rw [e0]; omega
  | ⟨1, _⟩ => show win1_2.index t (1 : Fin 2) * 64 + 1 * (j 1).val = (j 1).val; rw [e1]; omega

/-- A whole table read through the output's block at point `t` is the point's rows of the table. -/
theorem read1 (t : Fin cfg1.N) (G : FVec Ideal S100000x64 .f32) :
    ((cfg1.win 3).blk t).view.read (Elt Ideal) G = rowsOf (rho1 t) G := by
  funext j
  obtain ⟨e0, e1⟩ := idx1_out t
  show G (((cfg1.win 3).blk t).view.emb j) = G (ix2 (rho1 t (j 0)) (j 1))
  refine congrArg G (funext fun a => Fin.ext ?_)
  match a with
  | ⟨0, _⟩ => rfl
  | ⟨1, _⟩ => show win1_3.index t (1 : Fin 2) * 64 + 1 * (j 1).val = (j 1).val; rw [e1]; omega

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v45).slice (win1_3.rect t)).set ↔ _
  rw [View.set_slice_whole, Rect.mem_set_unit]
  exact Iff.rfl

/-- The 25 blocks of 4000 rows cover the 100000 rows: row r is in block r / 4000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := onto1 ⟨(i 0).val / 4000, by omega⟩
  obtain ⟨e0, e1⟩ := idx1_out t
  have q0 : win1_3.index t (0 : Fin 2) = (i 0).val / 4000 := ht
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- max(X + B, 0) · W on whole tables, B a one-row matrix. -/
def G1 (X : FVec Ideal S100000x64 .f32) (B : FVec Ideal S1x64 .f32) (W : FVec Ideal S64x64 .f32) : FVec Ideal S100000x64 .f32 :=
  propagate (M := 100000) (K := 64) (N := 64) (relu64 (addf X (rowBias64 B))) W

/-- What point `t` of launch 1 writes back is its rows of max(X + B, 0) · W. -/
theorem flushed1 (c : Dev nD) (t : Fin cfg1.N) :
    (dat1 V c).flushed 3 t = ((cfg1.win 3).blk t).view.read (Elt Ideal) (G1 (V c main_v43) (V c main_v44) (V c main_arg5)) := by
  show (cfg1.win 3).cut (grid1.coords t) ((dat1 V c).after 3 t) = _
  rw [after1_3]
  unfold out1_3
  rw [View.canon_unit_zero hz2]
  simp only [View.ld_unit_zero (S := S4000x64) hz2, View.ld_unit_zero (S := S1x64) hz2, View.ld_unit_zero (S := S64x64) hz2]
  rw [read1, iblk1_0_eq, iblk1_1_eq, iblk1_2_eq]
  dsimp only [k1_pay1]
  refine matmul_of_rows (rho1 t) _ _ _ _ ?_ (trunc_whole _ _ _ rfl)
  refine trunc_of_rows (rho1 t) _ _ _ ?_
  refine relu_of_rows (rho1 t) _ _ ?_ _
  refine addBias_of_rows (rho1 t) _ _ ?_ _ _ _ _
  exact cast_of_rows (rho1 t) _ _ rfl _

/-- Launch 1's output array after the run. -/
theorem final1 (c : Dev nD) : (dat1 V c).arrAt 3 cfg1.N = G1 (V c main_v43) (V c main_v44) (V c main_arg5) :=
  (dat1 V c).arrAt_eq_of_cover 3 _ (fun t _ => flushed1 V c t) cover1

/-! ## Region 2: the index maps, the blocks, the cover -/

/-- The output's block index: one block of 4000 rows per point, in range, all columns. -/
theorem idx2_out : ∀ t : Fin cfg2.N, win2_10.index t (0 : Fin 2) ≤ 24 ∧ win2_10.index t (1 : Fin 2) = 0 :=
  (by decide +kernel : ∀ t : Fin grid2.N, _)
/-- Every block of rows is some point's. -/
theorem onto2 : ∀ q : Fin 25, ∃ t : Fin cfg2.N, win2_10.index t (0 : Fin 2) = q.val :=
  (by decide +kernel : ∀ q : Fin 25, ∃ t : Fin grid2.N, win2_10.index t (0 : Fin 2) = q.val)
/-- The rows of the node tables that point `t` works on. -/
def rho2 (t : Fin cfg2.N) : Fin 4000 → Fin 100000 := rowsAt (win2_10.index t (0 : Fin 2)) (idx2_out t).1

/-- Window 0 moves with the output: the same block of rows, all columns. -/
theorem idx2_0 : ∀ t : Fin cfg2.N, win2_0.index t (0 : Fin 2) = win2_10.index t (0 : Fin 2) ∧ win2_0.index t (1 : Fin 2) = 0 :=
  (by decide +kernel : ∀ t : Fin grid2.N, _)
/-- Its block at point `t` is the point's rows of its array. -/
theorem iblk2_0_eq (c : Dev nD) (t : Fin cfg2.N) :
    iblk2 V c 0 t = rowsOf (rho2 t) (V c main_v58 : FVec Ideal S100000x64 .f32) := by
  funext j
  obtain ⟨e0, e1⟩ := idx2_0 t
  show V c main_v58 (((cfg2.win 0).blk t).view.emb j) = V c main_v58 (ix2 (rho2 t (j 0)) (j 1))
  refine congrArg (V c main_v58) (funext fun a => Fin.ext ?_)
  match a with
  | ⟨0, _⟩ => show win2_0.index t (0 : Fin 2) * 4000 + 1 * (j 0).val = win2_10.index t (0 : Fin 2) * 4000 + 1 * (j 0).val; rw [e0]
  | ⟨1, _⟩ => show win2_0.index t (1 : Fin 2) * 64 + 1 * (j 1).val = (j 1).val; rw [e1]; omega

/-- Window 2 moves with the output: the same block of rows, all columns. -/
theorem idx2_2 : ∀ t : Fin cfg2.N, win2_2.index t (0 : Fin 2) = win2_10.index t (0 : Fin 2) ∧ win2_2.index t (1 : Fin 2) = 0 :=
  (by decide +kernel : ∀ t : Fin grid2.N, _)
/-- Its block at point `t` is the point's rows of its array. -/
theorem iblk2_2_eq (c : Dev nD) (t : Fin cfg2.N) :
    iblk2 V c 2 t = rowsOf (rho2 t) (V c main_arg2 : FVec Ideal S100000x3 .f32) := by
  funext j
  obtain ⟨e0, e1⟩ := idx2_2 t
  show V c main_arg2 (((cfg2.win 2).blk t).view.emb j) = V c main_arg2 (ix2 (rho2 t (j 0)) (j 1))
  refine congrArg (V c main_arg2) (funext fun a => Fin.ext ?_)
  match a with
  | ⟨0, _⟩ => show win2_2.index t (0 : Fin 2) * 4000 + 1 * (j 0).val = win2_10.index t (0 : Fin 2) * 4000 + 1 * (j 0).val; rw [e0]
  | ⟨1, _⟩ => show win2_2.index t (1 : Fin 2) * 3 + 1 * (j 1).val = (j 1).val; rw [e1]; omega

/-- Window 1 is its whole array at every point. -/
theorem idx2_1 : ∀ t : Fin cfg2.N, win2_1.index t (0 : Fin 2) = 0 ∧ win2_1.index t (1 : Fin 2) = 0 :=
  (by decide +kernel : ∀ t : Fin grid2.N, _)
theorem iblk2_1_eq (c : Dev nD) (t : Fin cfg2.N) : iblk2 V c 1 t = (V c main_v59 : FVec Ideal S1x64 .f32) := by
  funext j
  obtain ⟨e0, e1⟩ := idx2_1 t
  show V c main_v59 (((cfg2.win 1).blk t).view.emb j) = V c main_v59 j
  refine congrArg (V c main_v59) (funext fun a => Fin.ext ?_)
  match a with
  | ⟨0, _⟩ => show win2_1.index t (0 : Fin 2) * 1 + 1 * (j 0).val = (j 0).val; rw [e0]; omega
  | ⟨1, _⟩ => show win2_1.index t (1 : Fin 2) * 64 + 1 * (j 1).val = (j 1).val; rw [e1]; omega

/-- Window 3 is its whole array at every point. -/
theorem idx2_3 : ∀ t : Fin cfg2.N, win2_3.index t (0 : Fin 2) = 0 ∧ win2_3.index t (1 : Fin 2) = 0 :=
  (by decide +kernel : ∀ t : Fin grid2.N, _)
theorem iblk2_3_eq (c : Dev nD) (t : Fin cfg2.N) : iblk2 V c 3 t = (V c main_v63 : FVec Ideal S64x64 .f32) := by
  funext j
  obtain ⟨e0, e1⟩ := idx2_3 t
  show V c main_v63 (((cfg2.win 3).blk t).view.emb j) = V c main_v63 j
  refine congrArg (V c main_v63) (funext fun a => Fin.ext ?_)
  match a with
  | ⟨0, _⟩ => show win2_3.index t (0 : Fin 2) * 64 + 1 * (j 0).val = (j 0).val; rw [e0]; omega
  | ⟨1, _⟩ => show win2_3.index t (1 : Fin 2) * 64 + 1 * (j 1).val = (j 1).val; rw [e1]; omega

/-- Window 4 is its whole array at every point. -/
theorem idx2_4 : ∀ t : Fin cfg2.N, win2_4.index t (0 : Fin 2) = 0 ∧ win2_4.index t (1 : Fin 2) = 0 :=
  (by decide +kernel : ∀ t : Fin grid2.N, _)
theorem iblk2_4_eq (c : Dev nD) (t : Fin cfg2.N) : iblk2 V c 4 t = (V c main_v64 : FVec Ideal S3x64 .f32) := by
  funext j
  obtain ⟨e0, e1⟩ := idx2_4 t
  show V c main_v64 (((cfg2.win 4).blk t).view.emb j) = V c main_v64 j
  refine congrArg (V c main_v64) (funext fun a => Fin.ext ?_)
  match a with
  | ⟨0, _⟩ => show win2_4.index t (0 : Fin 2) * 3 + 1 * (j 0).val = (j 0).val; rw [e0]; omega
  | ⟨1, _⟩ => show win2_4.index t (1 : Fin 2) * 64 + 1 * (j 1).val = (j 1).val; rw [e1]; omega

/-- Window 5 is its whole array at every point. -/
theorem idx2_5 : ∀ t : Fin cfg2.N, win2_5.index t (0 : Fin 2) = 0 ∧ win2_5.index t (1 : Fin 2) = 0 :=
  (by decide +kernel : ∀ t : Fin grid2.N, _)
theorem iblk2_5_eq (c : Dev nD) (t : Fin cfg2.N) : iblk2 V c 5 t = (V c main_v60 : FVec Ideal S1x64 .f32) := by
  funext j
  obtain ⟨e0, e1⟩ := idx2_5 t
  show V c main_v60 (((cfg2.win 5).blk t).view.emb j) = V c main_v60 j
  refine congrArg (V c main_v60) (funext fun a => Fin.ext ?_)
  match a with
  | ⟨0, _⟩ => show win2_5.index t (0 : Fin 2) * 1 + 1 * (j 0).val = (j 0).val; rw [e0]; omega
  | ⟨1, _⟩ => show win2_5.index t (1 : Fin 2) * 64 + 1 * (j 1).val = (j 1).val; rw [e1]; omega

/-- Window 6 is its whole array at every point. -/
theorem idx2_6 : ∀ t : Fin cfg2.N, win2_6.index t (0 : Fin 2) = 0 ∧ win2_6.index t (1 : Fin 2) = 0 :=
  (by decide +kernel : ∀ t : Fin grid2.N, _)
theorem iblk2_6_eq (c : Dev nD) (t : Fin cfg2.N) : iblk2 V c 6 t = (V c main_arg9 : FVec Ideal S64x64 .f32) := by
  funext j
  obtain ⟨e0, e1⟩ := idx2_6 t
  show V c main_arg9 (((cfg2.win 6).blk t).view.emb j) = V c main_arg9 j
  refine congrArg (V c main_arg9) (funext fun a => Fin.ext ?_)
  match a with
  | ⟨0, _⟩ => show win2_6.index t (0 : Fin 2) * 64 + 1 * (j 0).val = (j 0).val; rw [e0]; omega
  | ⟨1, _⟩ => show win2_6.index t (1 : Fin 2) * 64 + 1 * (j 1).val = (j 1).val; rw [e1]; omega

/-- Window 7 is its whole array at every point. -/
theorem idx2_7 : ∀ t : Fin cfg2.N, win2_7.index t (0 : Fin 2) = 0 ∧ win2_7.index t (1 : Fin 2) = 0 :=
  (by decide +kernel : ∀ t : Fin grid2.N, _)
theorem iblk2_7_eq (c : Dev nD) (t : Fin cfg2.N) : iblk2 V c 7 t = (V c main_v61 : FVec Ideal S1x64 .f32) := by
  funext j
  obtain ⟨e0, e1⟩ := idx2_7 t
  show V c main_v61 (((cfg2.win 7).blk t).view.emb j) = V c main_v61 j
  refine congrArg (V c main_v61) (funext fun a => Fin.ext ?_)
  match a with
  | ⟨0, _⟩ => show win2_7.index t (0 : Fin 2) * 1 + 1 * (j 0).val = (j 0).val; rw [e0]; omega
  | ⟨1, _⟩ => show win2_7.index t (1 : Fin 2) * 64 + 1 * (j 1).val = (j 1).val; rw [e1]; omega

/-- Window 8 is its whole array at every point. -/
theorem idx2_8 : ∀ t : Fin cfg2.N, win2_8.index t (0 : Fin 2) = 0 ∧ win2_8.index t (1 : Fin 2) = 0 :=
  (by decide +kernel : ∀ t : Fin grid2.N, _)
theorem iblk2_8_eq (c : Dev nD) (t : Fin cfg2.N) : iblk2 V c 8 t = (V c main_arg11 : FVec Ideal S64x30 .f32) := by
  funext j
  obtain ⟨e0, e1⟩ := idx2_8 t
  show V c main_arg11 (((cfg2.win 8).blk t).view.emb j) = V c main_arg11 j
  refine congrArg (V c main_arg11) (funext fun a => Fin.ext ?_)
  match a with
  | ⟨0, _⟩ => show win2_8.index t (0 : Fin 2) * 64 + 1 * (j 0).val = (j 0).val; rw [e0]; omega
  | ⟨1, _⟩ => show win2_8.index t (1 : Fin 2) * 30 + 1 * (j 1).val = (j 1).val; rw [e1]; omega

/-- Window 9 is its whole array at every point. -/
theorem idx2_9 : ∀ t : Fin cfg2.N, win2_9.index t (0 : Fin 2) = 0 ∧ win2_9.index t (1 : Fin 2) = 0 :=
  (by decide +kernel : ∀ t : Fin grid2.N, _)
theorem iblk2_9_eq (c : Dev nD) (t : Fin cfg2.N) : iblk2 V c 9 t = (V c main_v62 : FVec Ideal S1x30 .f32) := by
  funext j
  obtain ⟨e0, e1⟩ := idx2_9 t
  show V c main_v62 (((cfg2.win 9).blk t).view.emb j) = V c main_v62 j
  refine congrArg (V c main_v62) (funext fun a => Fin.ext ?_)
  match a with
  | ⟨0, _⟩ => show win2_9.index t (0 : Fin 2) * 1 + 1 * (j 0).val = (j 0).val; rw [e0]; omega
  | ⟨1, _⟩ => show win2_9.index t (1 : Fin 2) * 30 + 1 * (j 1).val = (j 1).val; rw [e1]; omega

/-- A whole table read through the output's block at point `t` is the point's rows of the table. -/
theorem read2 (t : Fin cfg2.N) (G : FVec Ideal S100000x30 .f32) :
    ((cfg2.win 10).blk t).view.read (Elt Ideal) G = rowsOf (rho2 t) G := by
  funext j
  obtain ⟨e0, e1⟩ := idx2_out t
  show G (((cfg2.win 10).blk t).view.emb j) = G (ix2 (rho2 t (j 0)) (j 1))
  refine congrArg G (funext fun a => Fin.ext ?_)
  match a with
  | ⟨0, _⟩ => rfl
  | ⟨1, _⟩ => show win2_10.index t (1 : Fin 2) * 30 + 1 * (j 1).val = (j 1).val; rw [e1]; omega

/-- An index of the output array is in point `t`'s block iff each coordinate is in the block's range on its axis. -/
theorem mem_blk2 (t : Fin cfg2.N) (i : S100000x30.Idx) :
    i ∈ ((cfg2.win 10).blk t).view.set ↔ ∀ a : Fin 2, win2_10.index t a * S4000x30.size a ≤ (i a).val ∧ (i a).val < win2_10.index t a * S4000x30.size a + S4000x30.size a := by
  show i ∈ ((View.whole main_v65).slice (win2_10.rect t)).set ↔ _
  rw [View.set_slice_whole, Rect.mem_set_unit]
  exact Iff.rfl

/-- The 25 blocks of 4000 rows cover the 100000 rows: row r is in block r / 4000. -/
theorem cover2 (i : S100000x30.Idx) : ∃ t : Fin cfg2.N, (cfg2.win 10).flush t = true ∧ i ∈ ((cfg2.win 10).blk t).view.set := by
  have hi0 : (i 0).val < 100000 := (i 0).isLt
  have hi1 : (i 1).val < 30 := (i 1).isLt
  obtain ⟨t, ht⟩ := onto2 ⟨(i 0).val / 4000, by omega⟩
  obtain ⟨e0, e1⟩ := idx2_out t
  have q0 : win2_10.index t (0 : Fin 2) = (i 0).val / 4000 := ht
  refine ⟨t, flush2_10 t, ?_⟩
  rw [mem_blk2]
  intro a
  match a with
  | ⟨0, _⟩ => show win2_10.index t (0 : Fin 2) * 4000 ≤ (i 0).val ∧ (i 0).val < win2_10.index t (0 : Fin 2) * 4000 + 4000; omega
  | ⟨1, _⟩ => show win2_10.index t (1 : Fin 2) * 30 ≤ (i 1).val ∧ (i 1).val < win2_10.index t (1 : Fin 2) * 30 + 30; omega

/-- The perceptron on whole tables, the biases one-row matrices and the first weight table already cut in two. -/
def G2 (X : FVec Ideal S100000x64 .f32) (B2 : FVec Ideal S1x64 .f32) (Gf : FVec Ideal S100000x3 .f32) (Wa : FVec Ideal S64x64 .f32)
    (Wb : FVec Ideal S3x64 .f32) (Bf1 : FVec Ideal S1x64 .f32) (Wf2 : FVec Ideal S64x64 .f32) (Bf2 : FVec Ideal S1x64 .f32)
    (Wo : FVec Ideal S64x30 .f32) (Bo : FVec Ideal S1x30 .f32) : FVec Ideal S100000x30 .f32 :=
  addf (propagate (M := 100000) (K := 64) (N := 30)
    (relu64 (addf (propagate (M := 100000) (K := 64) (N := 64)
      (relu64 (addf (addf (propagate (M := 100000) (K := 64) (N := 64) (relu64 (addf X (rowBias64 B2))) Wa)
        (propagate (M := 100000) (K := 3) (N := 64) Gf Wb)) (rowBias64 Bf1))) Wf2) (rowBias64 Bf2))) Wo) (rowBias30 Bo)

/-- What point `t` of launch 2 writes back is its rows of the perceptron on the whole tables. -/
theorem flushed2 (c : Dev nD) (t : Fin cfg2.N) :
    (dat2 V c).flushed 10 t = ((cfg2.win 10).blk t).view.read (Elt Ideal)
      (G2 (V c main_v58) (V c main_v59) (V c main_arg2) (V c main_v63) (V c main_v64) (V c main_v60) (V c main_arg9) (V c main_v61) (V c main_arg11) (V c main_v62)) := by
  show (cfg2.win 10).cut (grid2.coords t) ((dat2 V c).after 10 t) = _
  rw [after2_10]
  unfold out2_10
  rw [View.canon_unit_zero hz2]
  simp only [View.ld_unit_zero (S := S4000x64) hz2, View.ld_unit_zero (S := S1x64) hz2, View.ld_unit_zero (S := S64x64) hz2,
    View.ld_unit_zero (S := S4000x3) hz2, View.ld_unit_zero (S := S3x64) hz2, View.ld_unit_zero (S := S64x30) hz2,
    View.ld_unit_zero (S := S1x30) hz2]
  rw [read2, iblk2_0_eq, iblk2_1_eq, iblk2_2_eq, iblk2_3_eq, iblk2_4_eq, iblk2_5_eq, iblk2_6_eq, iblk2_7_eq, iblk2_8_eq, iblk2_9_eq]
  dsimp only [k2_pay1, k2_pay2]
  refine addBias_of_rows (rho2 t) _ _ ?_ _ _ _ _
  refine matmul_of_rows (rho2 t) _ _ _ _ ?_ (trunc_whole _ _ _ rfl)
  refine trunc_of_rows (rho2 t) _ _ _ ?_
  refine relu_of_rows (rho2 t) _ _ ?_ _
  refine addBias_of_rows (rho2 t) _ _ ?_ _ _ _ _
  refine matmul_of_rows (rho2 t) _ _ _ _ ?_ (trunc_whole _ _ _ rfl)
  refine trunc_of_rows (rho2 t) _ _ _ ?_
  refine relu_of_rows (rho2 t) _ _ ?_ _
  refine addBias_of_rows (rho2 t) _ _ ?_ _ _ _ _
  refine addf_of_rows (rho2 t) _ _ _ _ ?_ ?_
  · refine matmul_of_rows (rho2 t) _ _ _ _ ?_ (trunc_whole _ _ _ (shapeCast_self _ _))
    refine trunc_of_rows (rho2 t) _ _ _ ?_
    refine relu_of_rows (rho2 t) _ _ ?_ _
    refine addBias_of_rows (rho2 t) _ _ ?_ _ _ _ _
    exact cast_of_rows (rho2 t) _ _ rfl _
  · refine matmul_of_rows (rho2 t) _ _ _ _ ?_ (trunc_whole _ _ _ (shapeCast_self _ _))
    exact trunc_of_rows (rho2 t) _ _ _ rfl

/-- Launch 2's output array after the run. -/
theorem final2 (c : Dev nD) : (dat2 V c).arrAt 10 cfg2.N
    = G2 (V c main_v58) (V c main_v59) (V c main_arg2) (V c main_v63) (V c main_v64) (V c main_v60) (V c main_arg9) (V c main_v61) (V c main_arg11) (V c main_v62) :=
  (dat2 V c).arrAt_eq_of_cover 10 _ (fun t _ => flushed2 V c t) cover2

end Cert.KernelIdeal.Regions

end
-- ==== Proof.KernelValue.lean ====
/-
  The idealized kernel's result as a function of its arguments.

  The buffer contents at the last boundary of @main are read back to the launch memory, one boundary at a time:
  a buffer no operation of a stretch writes keeps its contents across the stretch; a buffer that is no window of a
  launch keeps its contents across the launch; a launch's output array ends as the whole-table function of the arrays
  the launch found (Regions); the aggregation between launches is one function of a table, the index words and the
  weights. Composed, the result buffer holds the network (Spec's netSplit) of the thirteen argument arrays.
-/
import proofs.«108752_j88218628260670_1_alg».proof.Proof.Gen.KernelIdeal.Frame
import proofs.«108752_j88218628260670_1_alg».proof.Proof.Spec
import proofs.«108752_j88218628260670_1_alg».proof.Proof.Regions
import Idealize.ShloMosaic.Lib.StableHlo.Run

set_option maxRecDepth 16384

noncomputable section

namespace Cert.KernelIdeal.Back

open Idealize.ShloMosaic Idealize.ShloMosaic.TcCoe Idealize.SL.Sem Idealize.ShloMosaic.StableHlo
open Cert.KernelIdeal Cert.KernelIdeal.Gen Cert.KernelIdeal.Regions Cert.BlockRows Cert.RowLayers Cert.Gcn

variable (m : (ℓ : Loc nD τ sig) → Buf (Elt Ideal) ℓ) (ρ : Dev nD → PrngReg) (c : Dev nD)

/-! ## Region 0's entry: after the three opening stretches -/

theorem at3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp
theorem at3_arg1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results_simp
theorem at3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp
theorem at3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp
theorem at3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp
theorem at3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp
theorem at3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp
theorem at3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp
theorem at3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp
theorem at3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp
theorem at3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp
theorem at3_arg11 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp
theorem at3_arg12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  after_results_simp

/-- The source words, the destination words and the weights are computed from the edge list before the first launch. -/
theorem at3_v3 : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results_simp
  rfl
theorem at3_v6 : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results_simp
  rfl
/-- After the first stretch: the destination words, the table of degrees, a constant zero. -/
theorem at1_v3 : W1 m ρ c (Proc.devRef .tc main_v3) = srcOf (m ((c : Thread nD τ).loc main_arg1)) := by
  show StableHlo.after hostOps0 (W0 m ρ c) (Proc.devRef .tc main_v3) = _
  after_results_simp
  rfl
theorem at1_v6 : W1 m ρ c (Proc.devRef .tc main_v6) = dstOf (m ((c : Thread nD τ).loc main_arg1)) := by
  show StableHlo.after hostOps0 (W0 m ρ c) (Proc.devRef .tc main_v6) = _
  after_results_simp
  rfl
theorem at1_v10 : W1 m ρ c (Proc.devRef .tc main_v10) = degOf (dstOf (m ((c : Thread nD τ).loc main_arg1))) := by
  show StableHlo.after hostOps0 (W0 m ρ c) (Proc.devRef .tc main_v10) = _
  after_results_simp
  rfl
theorem at1_v12 : W1 m ρ c (Proc.devRef .tc main_v12)
    = cmpf .ogt (degOf (dstOf (m ((c : Thread nD τ).loc main_arg1)))) (broadcastInDim S100000 ![] bcast_S_S100000 (constant (F := Ideal) S_ .f32 0x00000000#32)) := by
  show StableHlo.after hostOps0 (W0 m ρ c) (Proc.devRef .tc main_v12) = _
  after_results_simp
  rfl
theorem at1_v13 : W1 m ρ c (Proc.devRef .tc main_v13) = Host.rsqrt (degOf (dstOf (m ((c : Thread nD τ).loc main_arg1)))) := by
  show StableHlo.after hostOps0 (W0 m ρ c) (Proc.devRef .tc main_v13) = _
  after_results_simp
  rfl
theorem at1_cst2 : W1 m ρ c (Proc.devRef .tc main_cst_2) = constant (F := Ideal) S_ .f32 0x00000000#32 := by
  show StableHlo.after hostOps0 (W0 m ρ c) (Proc.devRef .tc main_cst_2) = _
  after_results_simp

/-- After the second stretch: the node factors dinv. -/
theorem at2_v14 : W2 m ρ c (Proc.devRef .tc main_v14) = dinvOf (dstOf (m ((c : Thread nD τ).loc main_arg1))) := by
  have h : W2 m ρ c (Proc.devRef .tc main_v14) = select (W1 m ρ c (Proc.devRef .tc main_v12)) (W1 m ρ c (Proc.devRef .tc main_v13))
      (broadcastInDim S100000 ![] bcast_S_S100000 (id (W1 m ρ c (Proc.devRef .tc main_cst_2)))) := by
    show StableHlo.after hostOps0_1 (W1 m ρ c) (Proc.devRef .tc main_v14) = _
    generalize W1 m ρ c = V
    after_results_simp
    rfl
  rw [h, at1_v12, at1_v13, at1_cst2]
  rfl
theorem at2_v3 : W2 m ρ c (Proc.devRef .tc main_v3) = srcOf (m ((c : Thread nD τ).loc main_arg1)) := by
  refine Eq.trans ?_ (at1_v3 m ρ c)
  show StableHlo.after hostOps0_1 (W1 m ρ c) (Proc.devRef .tc main_v3) = _
  after_results_simp
theorem at2_v6 : W2 m ρ c (Proc.devRef .tc main_v6) = dstOf (m ((c : Thread nD τ).loc main_arg1)) := by
  refine Eq.trans ?_ (at1_v6 m ρ c)
  show StableHlo.after hostOps0_1 (W1 m ρ c) (Proc.devRef .tc main_v6) = _
  after_results_simp

/-- After the third stretch: the weights. -/
theorem at3_v29 : W3 m ρ c (Proc.devRef .tc main_v29) = normOf (srcOf (m ((c : Thread nD τ).loc main_arg1))) (dstOf (m ((c : Thread nD τ).loc main_arg1))) := by
  have h : W3 m ρ c (Proc.devRef .tc main_v29) = normW (W2 m ρ c (Proc.devRef .tc main_v14)) (W2 m ρ c (Proc.devRef .tc main_v3)) (W2 m ρ c (Proc.devRef .tc main_v6)) := by
    show StableHlo.after hostOps0_2 (W2 m ρ c) (Proc.devRef .tc main_v29) = _
    generalize W2 m ρ c = V
    after_results_simp
    rfl
  rw [h, at2_v14, at2_v3, at2_v6]
  rfl

/-! ## Across launch 0 and the stretch after it -/

theorem at4_v3 : W4 m ρ c (Proc.devRef .tc main_v3) = srcOf (m ((c : Thread nD τ).loc main_arg1)) := (W4_of_ne m ρ c main_v3 (by decide)).trans (at3_v3 m ρ c)
theorem at4_v6 : W4 m ρ c (Proc.devRef .tc main_v6) = dstOf (m ((c : Thread nD τ).loc main_arg1)) := (W4_of_ne m ρ c main_v6 (by decide)).trans (at3_v6 m ρ c)
theorem at4_v29 : W4 m ρ c (Proc.devRef .tc main_v29) = normOf (srcOf (m ((c : Thread nD τ).loc main_arg1))) (dstOf (m ((c : Thread nD τ).loc main_arg1))) := (W4_of_ne m ρ c main_v29 (by decide)).trans (at3_v29 m ρ c)
theorem at4_arg2 : W4 m ρ c (Proc.devRef .tc main_arg2) = (m ((c : Thread nD τ).loc main_arg2)) := (W4_of_ne m ρ c main_arg2 (by decide)).trans (at3_arg2 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)
theorem at4_arg8 : W4 m ρ c (Proc.devRef .tc main_arg8) = (m ((c : Thread nD τ).loc main_arg8)) := (W4_of_ne m ρ c main_arg8 (by decide)).trans (at3_arg8 m ρ c)
theorem at4_arg9 : W4 m ρ c (Proc.devRef .tc main_arg9) = (m ((c : Thread nD τ).loc main_arg9)) := (W4_of_ne m ρ c main_arg9 (by decide)).trans (at3_arg9 m ρ c)
theorem at4_arg10 : W4 m ρ c (Proc.devRef .tc main_arg10) = (m ((c : Thread nD τ).loc main_arg10)) := (W4_of_ne m ρ c main_arg10 (by decide)).trans (at3_arg10 m ρ c)
theorem at4_arg11 : W4 m ρ c (Proc.devRef .tc main_arg11) = (m ((c : Thread nD τ).loc main_arg11)) := (W4_of_ne m ρ c main_arg11 (by decide)).trans (at3_arg11 m ρ c)
theorem at4_arg12 : W4 m ρ c (Proc.devRef .tc main_arg12) = (m ((c : Thread nD τ).loc main_arg12)) := (W4_of_ne m ρ c main_arg12 (by decide)).trans (at3_arg12 m ρ c)

/-- Launch 0 leaves x · W₁ in its output array. -/
theorem at4_v30 : W4 m ρ c (Proc.devRef .tc main_v30) = G0 (m ((c : Thread nD τ).loc main_arg0)) (m ((c : Thread nD τ).loc main_arg3)) := by
  refine (W4_arr m ρ c 2).trans ((final0 (V3 m ρ) c).trans ?_)
  show G0 (W3 m ρ c (Proc.devRef .tc main_arg0)) (W3 m ρ c (Proc.devRef .tc main_arg3)) = _
  rw [at3_arg0, at3_arg3]

theorem at5_v3 : W5 m ρ c (Proc.devRef .tc main_v3) = srcOf (m ((c : Thread nD τ).loc main_arg1)) := by
  refine Eq.trans ?_ (at4_v3 m ρ c)
  show StableHlo.after hostOps1 (W4 m ρ c) (Proc.devRef .tc main_v3) = _
  after_results_simp
theorem at5_v6 : W5 m ρ c (Proc.devRef .tc main_v6) = dstOf (m ((c : Thread nD τ).loc main_arg1)) := by
  refine Eq.trans ?_ (at4_v6 m ρ c)
  show StableHlo.after hostOps1 (W4 m ρ c) (Proc.devRef .tc main_v6) = _
  after_results_simp
theorem at5_v29 : W5 m ρ c (Proc.devRef .tc main_v29) = normOf (srcOf (m ((c : Thread nD τ).loc main_arg1))) (dstOf (m ((c : Thread nD τ).loc main_arg1))) := by
  refine Eq.trans ?_ (at4_v29 m ρ c)
  show StableHlo.after hostOps1 (W4 m ρ c) (Proc.devRef .tc main_v29) = _
  after_results_simp
theorem at5_arg2 : W5 m ρ c (Proc.devRef .tc main_arg2) = (m ((c : Thread nD τ).loc main_arg2)) := by
  refine Eq.trans ?_ (at4_arg2 m ρ c)
  show StableHlo.after hostOps1 (W4 m ρ c) (Proc.devRef .tc main_arg2) = _
  after_results_simp
theorem at5_arg5 : W5 m ρ c (Proc.devRef .tc main_arg5) = (m ((c : Thread nD τ).loc main_arg5)) := by
  refine Eq.trans ?_ (at4_arg5 m ρ c)
  show StableHlo.after hostOps1 (W4 m ρ c) (Proc.devRef .tc main_arg5) = _
  after_results_simp
theorem at5_arg6 : W5 m ρ c (Proc.devRef .tc main_arg6) = (m ((c : Thread nD τ).loc main_arg6)) := by
  refine Eq.trans ?_ (at4_arg6 m ρ c)
  show StableHlo.after hostOps1 (W4 m ρ c) (Proc.devRef .tc main_arg6) = _
  after_results_simp
theorem at5_arg7 : W5 m ρ c (Proc.devRef .tc main_arg7) = (m ((c : Thread nD τ).loc main_arg7)) := by
  refine Eq.trans ?_ (at4_arg7 m ρ c)
  show StableHlo.after hostOps1 (W4 m ρ c) (Proc.devRef .tc main_arg7) = _
  after_results_simp
theorem at5_arg8 : W5 m ρ c (Proc.devRef .tc main_arg8) = (m ((c : Thread nD τ).loc main_arg8)) := by
  refine Eq.trans ?_ (at4_arg8 m ρ c)
  show StableHlo.after hostOps1 (W4 m ρ c) (Proc.devRef .tc main_arg8) = _
  after_results_simp
theorem at5_arg9 : W5 m ρ c (Proc.devRef .tc main_arg9) = (m ((c : Thread nD τ).loc main_arg9)) := by
  refine Eq.trans ?_ (at4_arg9 m ρ c)
  show StableHlo.after hostOps1 (W4 m ρ c) (Proc.devRef .tc main_arg9) = _
  after_results_simp
theorem at5_arg10 : W5 m ρ c (Proc.devRef .tc main_arg10) = (m ((c : Thread nD τ).loc main_arg10)) := by
  refine Eq.trans ?_ (at4_arg10 m ρ c)
  show StableHlo.after hostOps1 (W4 m ρ c) (Proc.devRef .tc main_arg10) = _
  after_results_simp
theorem at5_arg11 : W5 m ρ c (Proc.devRef .tc main_arg11) = (m ((c : Thread nD τ).loc main_arg11)) := by
  refine Eq.trans ?_ (at4_arg11 m ρ c)
  show StableHlo.after hostOps1 (W4 m ρ c) (Proc.devRef .tc main_arg11) = _
  after_results_simp
theorem at5_arg12 : W5 m ρ c (Proc.devRef .tc main_arg12) = (m ((c : Thread nD τ).loc main_arg12)) := by
  refine Eq.trans ?_ (at4_arg12 m ρ c)
  show StableHlo.after hostOps1 (W4 m ρ c) (Proc.devRef .tc main_arg12) = _
  after_results_simp

/-- The stretch after launch 0 aggregates the launch's output over the edges … -/
theorem at5_v43 : W5 m ρ c (Proc.devRef .tc main_v43) = agg (G0 (m ((c : Thread nD τ).loc main_arg0)) (m ((c : Thread nD τ).loc main_arg3))) (m ((c : Thread nD τ).loc main_arg1)) := by
  have h : W5 m ρ c (Proc.devRef .tc main_v43) = aggW (W4 m ρ c (Proc.devRef .tc main_v30)) (W4 m ρ c (Proc.devRef .tc main_v3)) (W4 m ρ c (Proc.devRef .tc main_v6)) (W4 m ρ c (Proc.devRef .tc main_v29)) := by
    show StableHlo.after hostOps1 (W4 m ρ c) (Proc.devRef .tc main_v43) = _
    after_results_simp
    rfl
  rw [h, at4_v30, at4_v3, at4_v6, at4_v29]
  rfl
/-- … and lays the first bias out as one row. -/
theorem at5_v44 : W5 m ρ c (Proc.devRef .tc main_v44) = shapeCast S1x64 (m ((c : Thread nD τ).loc main_arg4)) shapeCasts_S64_S1x64 := by
  have h : W5 m ρ c (Proc.devRef .tc main_v44) = shapeCast S1x64 (W4 m ρ c (Proc.devRef .tc main_arg4)) shapeCasts_S64_S1x64 := by
    show StableHlo.after hostOps1 (W4 m ρ c) (Proc.devRef .tc main_v44) = _
    after_results_simp
    rfl
  rw [h, at4_arg4]

/-! ## Across launch 1 and the stretch after it -/

theorem at6_v3 : W6 m ρ c (Proc.devRef .tc main_v3) = srcOf (m ((c : Thread nD τ).loc main_arg1)) := (W6_of_ne m ρ c main_v3 (by decide)).trans (at5_v3 m ρ c)
theorem at6_v6 : W6 m ρ c (Proc.devRef .tc main_v6) = dstOf (m ((c : Thread nD τ).loc main_arg1)) := (W6_of_ne m ρ c main_v6 (by decide)).trans (at5_v6 m ρ c)
theorem at6_v29 : W6 m ρ c (Proc.devRef .tc main_v29) = normOf (srcOf (m ((c : Thread nD τ).loc main_arg1))) (dstOf (m ((c : Thread nD τ).loc main_arg1))) := (W6_of_ne m ρ c main_v29 (by decide)).trans (at5_v29 m ρ c)
theorem at6_arg2 : W6 m ρ c (Proc.devRef .tc main_arg2) = (m ((c : Thread nD τ).loc main_arg2)) := (W6_of_ne m ρ c main_arg2 (by decide)).trans (at5_arg2 m ρ c)
theorem at6_arg6 : W6 m ρ c (Proc.devRef .tc main_arg6) = (m ((c : Thread nD τ).loc main_arg6)) := (W6_of_ne m ρ c main_arg6 (by decide)).trans (at5_arg6 m ρ c)
theorem at6_arg7 : W6 m ρ c (Proc.devRef .tc main_arg7) = (m ((c : Thread nD τ).loc main_arg7)) := (W6_of_ne m ρ c main_arg7 (by decide)).trans (at5_arg7 m ρ c)
theorem at6_arg8 : W6 m ρ c (Proc.devRef .tc main_arg8) = (m ((c : Thread nD τ).loc main_arg8)) := (W6_of_ne m ρ c main_arg8 (by decide)).trans (at5_arg8 m ρ c)
theorem at6_arg9 : W6 m ρ c (Proc.devRef .tc main_arg9) = (m ((c : Thread nD τ).loc main_arg9)) := (W6_of_ne m ρ c main_arg9 (by decide)).trans (at5_arg9 m ρ c)
theorem at6_arg10 : W6 m ρ c (Proc.devRef .tc main_arg10) = (m ((c : Thread nD τ).loc main_arg10)) := (W6_of_ne m ρ c main_arg10 (by decide)).trans (at5_arg10 m ρ c)
theorem at6_arg11 : W6 m ρ c (Proc.devRef .tc main_arg11) = (m ((c : Thread nD τ).loc main_arg11)) := (W6_of_ne m ρ c main_arg11 (by decide)).trans (at5_arg11 m ρ c)
theorem at6_arg12 : W6 m ρ c (Proc.devRef .tc main_arg12) = (m ((c : Thread nD τ).loc main_arg12)) := (W6_of_ne m ρ c main_arg12 (by decide)).trans (at5_arg12 m ρ c)

/-- Launch 1 leaves max(agg₁ + b₁, 0) · W₂ in its output array. -/
theorem at6_v45 : W6 m ρ c (Proc.devRef .tc main_v45) = (G1 (agg (G0 (m ((c : Thread nD τ).loc main_arg0)) (m ((c : Thread nD τ).loc main_arg3))) (m ((c : Thread nD τ).loc main_arg1))) (shapeCast S1x64 (m ((c : Thread nD τ).loc main_arg4)) shapeCasts_S64_S1x64) (m ((c : Thread nD τ).loc main_arg5))) := by
  refine (W6_arr m ρ c 3).trans ((final1 (V5 m ρ) c).trans ?_)
  show G1 (W5 m ρ c (Proc.devRef .tc main_v43)) (W5 m ρ c (Proc.devRef .tc main_v44)) (W5 m ρ c (Proc.devRef .tc main_arg5)) = _
  rw [at5_v43, at5_v44, at5_arg5]

theorem at7_arg2 : W7 m ρ c (Proc.devRef .tc main_arg2) = (m ((c : Thread nD τ).loc main_arg2)) := by
  refine Eq.trans ?_ (at6_arg2 m ρ c)
  show StableHlo.after hostOps2 (W6 m ρ c) (Proc.devRef .tc main_arg2) = _
  after_results_simp
theorem at7_arg9 : W7 m ρ c (Proc.devRef .tc main_arg9) = (m ((c : Thread nD τ).loc main_arg9)) := by
  refine Eq.trans ?_ (at6_arg9 m ρ c)
  show StableHlo.after hostOps2 (W6 m ρ c) (Proc.devRef .tc main_arg9) = _
  after_results_simp
theorem at7_arg11 : W7 m ρ c (Proc.devRef .tc main_arg11) = (m ((c : Thread nD τ).loc main_arg11)) := by
  refine Eq.trans ?_ (at6_arg11 m ρ c)
  show StableHlo.after hostOps2 (W6 m ρ c) (Proc.devRef .tc main_arg11) = _
  after_results_simp

theorem at7_v58 : W7 m ρ c (Proc.devRef .tc main_v58) = agg (G1 (agg (G0 (m ((c : Thread nD τ).loc main_arg0)) (m ((c : Thread nD τ).loc main_arg3))) (m ((c : Thread nD τ).loc main_arg1))) (shapeCast S1x64 (m ((c : Thread nD τ).loc main_arg4)) shapeCasts_S64_S1x64) (m ((c : Thread nD τ).loc main_arg5))) (m ((c : Thread nD τ).loc main_arg1)) := by
  have h : W7 m ρ c (Proc.devRef .tc main_v58) = aggW (W6 m ρ c (Proc.devRef .tc main_v45)) (W6 m ρ c (Proc.devRef .tc main_v3)) (W6 m ρ c (Proc.devRef .tc main_v6)) (W6 m ρ c (Proc.devRef .tc main_v29)) := by
    show StableHlo.after hostOps2 (W6 m ρ c) (Proc.devRef .tc main_v58) = _
    after_results_simp
    rfl
  rw [h, at6_v45, at6_v3, at6_v6, at6_v29]
  rfl
theorem at7_v59 : W7 m ρ c (Proc.devRef .tc main_v59) = shapeCast S1x64 (m ((c : Thread nD τ).loc main_arg6)) shapeCasts_S64_S1x64 := by
  have h : W7 m ρ c (Proc.devRef .tc main_v59) = shapeCast S1x64 (W6 m ρ c (Proc.devRef .tc main_arg6)) shapeCasts_S64_S1x64 := by
    show StableHlo.after hostOps2 (W6 m ρ c) (Proc.devRef .tc main_v59) = _
    after_results_simp
    rfl
  rw [h, at6_arg6]
theorem at7_v60 : W7 m ρ c (Proc.devRef .tc main_v60) = shapeCast S1x64 (m ((c : Thread nD τ).loc main_arg8)) shapeCasts_S64_S1x64 := by
  have h : W7 m ρ c (Proc.devRef .tc main_v60) = shapeCast S1x64 (W6 m ρ c (Proc.devRef .tc main_arg8)) shapeCasts_S64_S1x64 := by
    show StableHlo.after hostOps2 (W6 m ρ c) (Proc.devRef .tc main_v60) = _
    after_results_simp
    rfl
  rw [h, at6_arg8]
theorem at7_v61 : W7 m ρ c (Proc.devRef .tc main_v61) = shapeCast S1x64 (m ((c : Thread nD τ).loc main_arg10)) shapeCasts_S64_S1x64 := by
  have h : W7 m ρ c (Proc.devRef .tc main_v61) = shapeCast S1x64 (W6 m ρ c (Proc.devRef .tc main_arg10)) shapeCasts_S64_S1x64 := by
    show StableHlo.after hostOps2 (W6 m ρ c) (Proc.devRef .tc main_v61) = _
    after_results_simp
    rfl
  rw [h, at6_arg10]
theorem at7_v62 : W7 m ρ c (Proc.devRef .tc main_v62) = shapeCast S1x30 (m ((c : Thread nD τ).loc main_arg12)) shapeCasts_S30_S1x30 := by
  have h : W7 m ρ c (Proc.devRef .tc main_v62) = shapeCast S1x30 (W6 m ρ c (Proc.devRef .tc main_arg12)) shapeCasts_S30_S1x30 := by
    show StableHlo.after hostOps2 (W6 m ρ c) (Proc.devRef .tc main_v62) = _
    after_results_simp
    rfl
  rw [h, at6_arg12]
theorem at7_v63 : W7 m ρ c (Proc.devRef .tc main_v63) = extractStridedSlice S64x64 ![0, 0] (m ((c : Thread nD τ).loc main_arg7)) slices_S67x64_S64x64_0_0 := by
  have h : W7 m ρ c (Proc.devRef .tc main_v63) = extractStridedSlice S64x64 ![0, 0] (W6 m ρ c (Proc.devRef .tc main_arg7)) slices_S67x64_S64x64_0_0 := by
    show StableHlo.after hostOps2 (W6 m ρ c) (Proc.devRef .tc main_v63) = _
    after_results_simp
  rw [h, at6_arg7]
theorem at7_v64 : W7 m ρ c (Proc.devRef .tc main_v64) = extractStridedSlice S3x64 ![64, 0] (m ((c : Thread nD τ).loc main_arg7)) slices_S67x64_S3x64_64_0 := by
  have h : W7 m ρ c (Proc.devRef .tc main_v64) = extractStridedSlice S3x64 ![64, 0] (W6 m ρ c (Proc.devRef .tc main_arg7)) slices_S67x64_S3x64_64_0 := by
    show StableHlo.after hostOps2 (W6 m ρ c) (Proc.devRef .tc main_v64) = _
    after_results_simp
  rw [h, at6_arg7]

/-! ## The result -/

/-- The result buffer at the last boundary is the network of the arguments, the first perceptron table cut in two. -/
theorem result : W8 m ρ c (Proc.devRef .tc main_v65)
    = netSplit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 10).trans ((final2 (V7 m ρ) c).trans ?_)
  show G2 (W7 m ρ c (Proc.devRef .tc main_v58)) (W7 m ρ c (Proc.devRef .tc main_v59)) (W7 m ρ c (Proc.devRef .tc main_arg2)) (W7 m ρ c (Proc.devRef .tc main_v63))
      (W7 m ρ c (Proc.devRef .tc main_v64)) (W7 m ρ c (Proc.devRef .tc main_v60)) (W7 m ρ c (Proc.devRef .tc main_arg9)) (W7 m ρ c (Proc.devRef .tc main_v61))
      (W7 m ρ c (Proc.devRef .tc main_arg11)) (W7 m ρ c (Proc.devRef .tc main_v62)) = _
  rw [at7_v58, at7_v59, at7_arg2, at7_v63, at7_v64, at7_v60, at7_arg9, at7_v61, at7_arg11, at7_v62]
  unfold G2 G1 G0
  rw [rowBias64_reshape, rowBias64_reshape, rowBias64_reshape, rowBias64_reshape, rowBias30_reshape]
  rfl

end Cert.KernelIdeal.Back

end
-- ==== Proof.RefValue.lean ====
/-
  The idealized reference's result as a function of its arguments.

  The reference is one straight line of host operations; its result buffer ends at their composed term of the argument
  arrays. That term is, read from the outside in, the network of Spec in the joined spelling: the perceptron's last two
  layers over [a₂ | g] · Wf₁, with a₂ the second convolution's activations. The operations' own records (which axes a
  product contracts, which a gather collapses) are the same lists of numbers in both programs, so nothing is computed:
  the two terms unfold to one.
-/
import proofs.«108752_j88218628260670_1_alg».proof.Proof.RefRunPatched
import proofs.«108752_j88218628260670_1_alg».proof.Proof.Spec

set_option maxRecDepth 16384

noncomputable section

namespace Cert.ReferenceIdeal.RefValue

open Idealize.ShloMosaic Idealize.ShloMosaic.TcCoe Idealize.SL.Sem Cert.ReferenceIdeal Cert.Gcn

/-- The reference's composed term is the network of the arguments, the node rows and the extra features joined. -/
theorem result (m : (ℓ : Loc nD τ sig) → Buf (Elt Ideal) ℓ) (c : Dev nD) :
    Cert.ReferenceIdeal.ValueP.res_main_v80 (F := Ideal) m c
      = netJoined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v80
  rfl

end Cert.ReferenceIdeal.RefValue

end
-- ==== Proof.lean ====
/-
  A two-layer graph convolution with a three-layer perceptron on top, computed by three tiled kernel launches with the
  gathers and scatter-sums between them on the host, against the same network written as plain array operations.

  On the extended reals the two programs compute one function of the thirteen arguments. Each launch works on blocks
  of 4000 node rows and every one of its operations acts row by row, so its output array is the same expression on
  whole tables (Regions); the aggregation between launches is literally the reference's (Spec's agg); a conversion to
  a narrower float format is the identity. What is left is the first perceptron layer, where the kernel multiplies the
  node rows by the first 64 rows of the weight table and the three extra features by the last 3 and adds, while the
  reference joins rows and features and multiplies once: a 67-term sum split after its 64th term
  (Spec's netJoined_eq_netSplit), which needs no finiteness. The three frames are the generated ones; the idealization
  rewrote nothing, so its conjunct is trivial.
-/
import proofs.«108752_j88218628260670_1_alg».proof.Defs
import proofs.«108752_j88218628260670_1_alg».proof.Proof.Gen.Kernel
import proofs.«108752_j88218628260670_1_alg».proof.Proof.Gen.Kernel.Skeleton
import proofs.«108752_j88218628260670_1_alg».proof.Proof.Gen.Kernel.Launch
import proofs.«108752_j88218628260670_1_alg».proof.Proof.Gen.Kernel.Points
import proofs.«108752_j88218628260670_1_alg».proof.Proof.Gen.Kernel.Frame
import proofs.«108752_j88218628260670_1_alg».proof.Proof.Gen.KernelIdeal
import proofs.«108752_j88218628260670_1_alg».proof.Proof.Gen.KernelIdeal.Skeleton
import proofs.«108752_j88218628260670_1_alg».proof.Proof.Gen.KernelIdeal.Launch
import proofs.«108752_j88218628260670_1_alg».proof.Proof.Gen.KernelIdeal.Points
import proofs.«108752_j88218628260670_1_alg».proof.Proof.Gen.KernelIdeal.Frame
import proofs.«108752_j88218628260670_1_alg».proof.Proof.Gen.ReferenceIdeal
import proofs.«108752_j88218628260670_1_alg».proof.Proof.Gen.Pre_finite_inputs
import proofs.«108752_j88218628260670_1_alg».proof.Proof.RefRunPatched
import proofs.«108752_j88218628260670_1_alg».proof.Proof.Spec
import proofs.«108752_j88218628260670_1_alg».proof.Proof.KernelRun
import proofs.«108752_j88218628260670_1_alg».proof.Proof.KernelValue
import proofs.«108752_j88218628260670_1_alg».proof.Proof.RefValue
import Idealize.ShloMosaic.Adequacy
import Idealize.ShloMosaic.Init

noncomputable section

namespace Cert.Proof

open Idealize.ShloMosaic Idealize.SL.Sem

/-- The three programs run and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the network of the arguments in their
    result buffers: the kernel in the split spelling, the reference in the joined one, equal entry by entry. -/
theorem algebraic : Cert.algebraic_KernelIdeal_ReferenceIdeal := by
  intro m ρ m' ρ' _ hagree
  refine ⟨fun c => Cert.Gcn.netSplit (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Back.result m ρ c), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact Cert.Gcn.netJoined_eq_netSplit _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
